-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x16 .f32) (main_arg5 : FVec F S16 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S10000x256 : Shape := ⟨2, ![10000, 256]⟩
abbrev S10000x128 : Shape := ⟨2, ![10000, 128]⟩
abbrev S850000x128 : Shape := ⟨2, ![850000, 128]⟩
abbrev S1x128 : Shape := ⟨2, ![1, 128]⟩
abbrev S50000x16 : Shape := ⟨2, ![50000, 16]⟩
abbrev S10000x16 : Shape := ⟨2, ![10000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 108
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .bf16⟩
  | .hbm, ⟨47, _⟩ => ⟨S256x128, .bf16⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .bf16⟩
  | .hbm, ⟨72, _⟩ => ⟨S128x16, .bf16⟩
  | .hbm, ⟨73, _⟩ => ⟨S50000x16, .f32⟩
  | .hbm, ⟨74, _⟩ => ⟨S_, .i32⟩
  | .hbm, ⟨75, _⟩ => ⟨S850000, .i32⟩
  | .hbm, ⟨76, _⟩ => ⟨S850000, .i1⟩
  | .hbm, ⟨77, _⟩ => ⟨S_, .i32⟩
  | .hbm, ⟨78, _⟩ => ⟨S850000, .i32⟩
  | .hbm, ⟨79, _⟩ => ⟨S850000, .i32⟩
  | .hbm, ⟨80, _⟩ => ⟨S850000, .i32⟩
  | .hbm, ⟨81, _⟩ => ⟨S850000x1, .i32⟩
  | .hbm, ⟨82, _⟩ => ⟨S850000x16, .f32⟩
  | .hbm, ⟨83, _⟩ => ⟨S850000x1, .f32⟩
  | .hbm, ⟨84, _⟩ => ⟨S850000x16, .f32⟩
  | .hbm, ⟨85, _⟩ => ⟨S850000x16, .f32⟩
  | .hbm, ⟨86, _⟩ => ⟨S_, .f32⟩
  | .hbm, ⟨87, _⟩ => ⟨S50000x16, .f32⟩
  | .hbm, ⟨88, _⟩ => ⟨S850000x1, .i32⟩
  | .hbm, ⟨89, _⟩ => ⟨S50000x16, .f32⟩
  | .hbm, ⟨90, _⟩ => ⟨S1x16, .f32⟩
  | .hbm, ⟨91, _⟩ => ⟨S50000x16, .f32⟩
  | .hbm, ⟨92, _⟩ => ⟨S50000x16, .f32⟩
  | .hbm, ⟨93, _⟩ => ⟨S_, .f32⟩
  | .hbm, ⟨94, _⟩ => ⟨S50000, .f32⟩
  | .hbm, ⟨95, _⟩ => ⟨S_, .f32⟩
  | .hbm, ⟨96, _⟩ => ⟨S50000, .f32⟩
  | .hbm, ⟨97, _⟩ => ⟨S50000, .f32⟩
  | .hbm, ⟨98, _⟩ => ⟨S50000x1, .f32⟩
  | .hbm, ⟨99, _⟩ => ⟨S50000x16, .f32⟩
  | .hbm, ⟨100, _⟩ => ⟨S50000x16, .f32⟩
  | .hbm, ⟨101, _⟩ => ⟨S50000x16, .f32⟩
  | .hbm, ⟨102, _⟩ => ⟨S_, .f32⟩
  | .hbm, ⟨103, _⟩ => ⟨S50000, .f32⟩
  | .hbm, ⟨104, _⟩ => ⟨S50000x1, .f32⟩
  | .hbm, ⟨105, _⟩ => ⟨S50000x1, .f32⟩
  | .hbm, ⟨106, _⟩ => ⟨S50000x16, .f32⟩
  | .hbm, ⟨107, _⟩ => ⟨S50000x16, .f32⟩
  | .local _ .vmem, ⟨0, _⟩ => ⟨S10000x256, .bf16⟩
  | .local _ .vmem, ⟨1, _⟩ => ⟨S10000x256, .bf16⟩
  | .local _ .vmem, ⟨2, _⟩ => ⟨S256x128, .bf16⟩
  | .local _ .vmem, ⟨3, _⟩ => ⟨S10000x128, .f32⟩
  | .local _ .vmem, ⟨4, _⟩ => ⟨S10000x128, .f32⟩
  | .local _ .vmem, ⟨5, _⟩ => ⟨S10000x128, .bf16⟩
  | .local _ .vmem, ⟨6, _⟩ => ⟨S10000x128, .bf16⟩
  | .local _ .vmem, ⟨7, _⟩ => ⟨S128x16, .bf16⟩
  | .local _ .vmem, ⟨8, _⟩ => ⟨S10000x16, .f32⟩
  | .local _ .vmem, ⟨9, _⟩ => ⟨S10000x16, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_cst : Ref sig .tc := ⟨.hbm, 68, rfl⟩
abbrev main_call1_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v69 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S10000x128_S10000x128_0_0 : ∀ a, (![0, 0] : Fin 2 → Nat) a + S10000x128.size a ≤ S10000x128.size a
  h_S10000x128 : 0 < S10000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S10000x16_S10000x16_0_0 : ∀ a, (![0, 0] : Fin 2 → Nat) a + S10000x16.size a ≤ S10000x16.size a
  h_S10000x16 : 0 < S10000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x256_S256x128_S10000x128_1_0_0_1_n_n_wf : DotDims.WF S10000x256 S256x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x16_S10000x16_1_0_0_1_n_n_wf : DotDims.WF S10000x128 S128x16 S10000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .bf16 = 32 ∨ (Rect.block (s := S50000x256) S10000x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .bf16 = 32 ∨ (Rect.block (s := S128x16) S128x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S50000x16.size a
  hwx1_2 : ∀ i : grid1.Coords, EltTy.bits .f32 = 32 ∨ (Rect.block (s := S50000x16) S10000x16.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_v30) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 104
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x16, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x16, .f32⟩
  | .hbm, ⟨79, _⟩ => ⟨S850000x1, .f32⟩
  | .hbm, ⟨80, _⟩ => ⟨S850000x16, .f32⟩
  | .hbm, ⟨81, _⟩ => ⟨S850000x16, .f32⟩
  | .hbm, ⟨82, _⟩ => ⟨S_, .f32⟩
  | .hbm, ⟨83, _⟩ => ⟨S50000x16, .f32⟩
  | .hbm, ⟨84, _⟩ => ⟨S850000x1, .i32⟩
  | .hbm, ⟨85, _⟩ => ⟨S50000x16, .f32⟩
  | .hbm, ⟨86, _⟩ => ⟨S1x16, .f32⟩
  | .hbm, ⟨87, _⟩ => ⟨S50000x16, .f32⟩
  | .hbm, ⟨88, _⟩ => ⟨S50000x16, .f32⟩
  | .hbm, ⟨89, _⟩ => ⟨S_, .f32⟩
  | .hbm, ⟨90, _⟩ => ⟨S50000, .f32⟩
  | .hbm, ⟨91, _⟩ => ⟨S_, .f32⟩
  | .hbm, ⟨92, _⟩ => ⟨S50000, .f32⟩
  | .hbm, ⟨93, _⟩ => ⟨S50000, .f32⟩
  | .hbm, ⟨94, _⟩ => ⟨S50000x1, .f32⟩
  | .hbm, ⟨95, _⟩ => ⟨S50000x16, .f32⟩
  | .hbm, ⟨96, _⟩ => ⟨S50000x16, .f32⟩
  | .hbm, ⟨97, _⟩ => ⟨S50000x16, .f32⟩
  | .hbm, ⟨98, _⟩ => ⟨S_, .f32⟩
  | .hbm, ⟨99, _⟩ => ⟨S50000, .f32⟩
  | .hbm, ⟨100, _⟩ => ⟨S50000x1, .f32⟩
  | .hbm, ⟨101, _⟩ => ⟨S50000x1, .f32⟩
  | .hbm, ⟨102, _⟩ => ⟨S50000x16, .f32⟩
  | .hbm, ⟨103, _⟩ => ⟨S50000x16, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x16_S50000x16_1_0_0_1_n_n_wf : DotDims.WF S50000x128 S128x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.LibJoin.lean ====
/-
  A `concatenate` of two arrays as a plain function of the two arrays.

  The printed `concatenate` takes its operands as a list of (shape, array) pairs. A rewriting pass that evaluates a
  program's operations one by one does not look under such a pair, so an operand that is itself the result of earlier
  operations stays unevaluated there. `join2` is the same joined array with the two operands as ordinary arguments, and
  `join2_def` turns the printed spelling into it (by definition). General in the shapes, the axis and the element type.
-/
import Idealize.ShloMosaic.PureOps.ShapeOps

noncomputable section

namespace Cert.LibJoin

open Idealize.ShloMosaic

/-- Two arrays joined along axis `a` of the result shape `t`, as a function of the two arrays. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed `concatenate` of two operands is `join2` of them. -/
theorem join2_def {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = join2 t a s₁ s₂ h x y := rfl

end Cert.LibJoin

end
-- ==== Proof.RefCasts.lean ====
/-
  The typed views of the reference's function-call buffers are the identity.

  A called function's operations name their buffers through typed references, and move an array in and out of such a
  buffer through a transport along "this buffer's type is that array type". For every buffer named here the two types
  are the same type, so the transport is the identity: one lemma per buffer and direction, each by computation.
-/
import proofs.«119963_j43791486550061_1_alg».proof.Proof.Gen.ReferenceIdeal
import Idealize.ShloMosaic.Lib.StableHlo

noncomputable section

namespace Cert.ReferenceIdeal.Casts

open Cert.ReferenceIdeal Idealize.ShloMosaic Idealize.ShloMosaic.TcCoe Idealize.ShloMosaic.StableHlo

variable {F : FTy → Type} [FloatOps F]

theorem toBuf_main_cst_2 (h1 : (main_cst_2 : Ref sig .tc).ty = ⟨S_, .f32⟩) (h2 : (main_cst_2 : Ref sig .tc).space ≠ .host) (h3 : (main_cst_2 : Ref sig .tc).isScoped = false) (v : (⟨S_, .f32⟩ : BufTy).Contents (Elt F)) :
    (TRef.of (T := ⟨S_, .f32⟩) main_cst_2 h1 h2 h3).toBuf (Val := Elt F) v = v := rfl
theorem ofBuf_main_cst_2 (h1 : (main_cst_2 : Ref sig .tc).ty = ⟨S_, .f32⟩) (h2 : (main_cst_2 : Ref sig .tc).space ≠ .host) (h3 : (main_cst_2 : Ref sig .tc).isScoped = false) (v : (⟨S_, .f32⟩ : BufTy).Contents (Elt F)) :
    (TRef.of (T := ⟨S_, .f32⟩) main_cst_2 h1 h2 h3).ofBuf (Val := Elt F) v = v := rfl

theorem toBuf_main_call0_v0 (h1 : (main_call0_v0 : Ref sig .tc).ty = ⟨S_, .f32⟩) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).toBuf (Val := Elt F) v = v := rfl
theorem ofBuf_main_call0_v0 (h1 : (main_call0_v0 : Ref sig .tc).ty = ⟨S_, .f32⟩) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).ofBuf (Val := Elt F) v = v := rfl

theorem toBuf_main_call0_v1 (h1 : (main_call0_v1 : Ref sig .tc).ty = ⟨S50000, .f32⟩) (h2 : (main_call0_v1 : Ref sig .tc).space ≠ .host) (h3 : (main_call0_v1 : Ref sig .tc).isScoped = false) (v : (⟨S50000, .f32⟩ : BufTy).Contents (Elt F)) :
    (TRef.of (T := ⟨S50000, .f32⟩) main_call0_v1 h1 h2 h3).toBuf (Val := Elt F) v = v := rfl
theorem ofBuf_main_call0_v1 (h1 : (main_call0_v1 : Ref sig .tc).ty = ⟨S50000, .f32⟩) (h2 : (main_call0_v1 : Ref sig .tc).space ≠ .host) (h3 : (main_call0_v1 : Ref sig .tc).isScoped = false) (v : (⟨S50000, .f32⟩ : BufTy).Contents (Elt F)) :
    (TRef.of (T := ⟨S50000, .f32⟩) main_call0_v1 h1 h2 h3).ofBuf (Val := Elt F) v = v := rfl

theorem toBuf_main_v12 (h1 : (main_v12 : Ref sig .tc).ty = ⟨S50000, .i1⟩) (h2 : (main_v12 : Ref sig .tc).space ≠ .host) (h3 : (main_v12 : Ref sig .tc).isScoped = false) (v : (⟨S50000, .i1⟩ : BufTy).Contents (Elt F)) :
    (TRef.of (T := ⟨S50000, .i1⟩) main_v12 h1 h2 h3).toBuf (Val := Elt F) v = v := rfl
theorem ofBuf_main_v12 (h1 : (main_v12 : Ref sig .tc).ty = ⟨S50000, .i1⟩) (h2 : (main_v12 : Ref sig .tc).space ≠ .host) (h3 : (main_v12 : Ref sig .tc).isScoped = false) (v : (⟨S50000, .i1⟩ : BufTy).Contents (Elt F)) :
    (TRef.of (T := ⟨S50000, .i1⟩) main_v12 h1 h2 h3).ofBuf (Val := Elt F) v = v := rfl

theorem toBuf_main_v13 (h1 : (main_v13 : Ref sig .tc).ty = ⟨S50000, .f32⟩) (h2 : (main_v13 : Ref sig .tc).space ≠ .host) (h3 : (main_v13 : Ref sig .tc).isScoped = false) (v : (⟨S50000, .f32⟩ : BufTy).Contents (Elt F)) :
    (TRef.of (T := ⟨S50000, .f32⟩) main_v13 h1 h2 h3).toBuf (Val := Elt F) v = v := rfl
theorem ofBuf_main_v13 (h1 : (main_v13 : Ref sig .tc).ty = ⟨S50000, .f32⟩) (h2 : (main_v13 : Ref sig .tc).space ≠ .host) (h3 : (main_v13 : Ref sig .tc).isScoped = false) (v : (⟨S50000, .f32⟩ : BufTy).Contents (Elt F)) :
    (TRef.of (T := ⟨S50000, .f32⟩) main_v13 h1 h2 h3).ofBuf (Val := Elt F) v = v := rfl

theorem toBuf_main_v14 (h1 : (main_v14 : Ref sig .tc).ty = ⟨S50000, .f32⟩) (h2 : (main_v14 : Ref sig .tc).space ≠ .host) (h3 : (main_v14 : Ref sig .tc).isScoped = false) (v : (⟨S50000, .f32⟩ : BufTy).Contents (Elt F)) :
    (TRef.of (T := ⟨S50000, .f32⟩) main_v14 h1 h2 h3).toBuf (Val := Elt F) v = v := rfl
theorem ofBuf_main_v14 (h1 : (main_v14 : Ref sig .tc).ty = ⟨S50000, .f32⟩) (h2 : (main_v14 : Ref sig .tc).space ≠ .host) (h3 : (main_v14 : Ref sig .tc).isScoped = false) (v : (⟨S50000, .f32⟩ : BufTy).Contents (Elt F)) :
    (TRef.of (T := ⟨S50000, .f32⟩) main_v14 h1 h2 h3).ofBuf (Val := Elt F) v = v := rfl

theorem toBuf_main_call1_cst (h1 : (main_call1_cst : Ref sig .tc).ty = ⟨S_, .f32⟩) (h2 : (main_call1_cst : Ref sig .tc).space ≠ .host) (h3 : (main_call1_cst : Ref sig .tc).isScoped = false) (v : (⟨S_, .f32⟩ : BufTy).Contents (Elt F)) :
    (TRef.of (T := ⟨S_, .f32⟩) main_call1_cst h1 h2 h3).toBuf (Val := Elt F) v = v := rfl
theorem ofBuf_main_call1_cst (h1 : (main_call1_cst : Ref sig .tc).ty = ⟨S_, .f32⟩) (h2 : (main_call1_cst : Ref sig .tc).space ≠ .host) (h3 : (main_call1_cst : Ref sig .tc).isScoped = false) (v : (⟨S_, .f32⟩ : BufTy).Contents (Elt F)) :
    (TRef.of (T := ⟨S_, .f32⟩) main_call1_cst h1 h2 h3).ofBuf (Val := Elt F) v = v := rfl

theorem toBuf_main_call1_v0 (h1 : (main_call1_v0 : Ref sig .tc).ty = ⟨S50000x128, .f32⟩) (h2 : (main_call1_v0 : Ref sig .tc).space ≠ .host) (h3 : (main_call1_v0 : Ref sig .tc).isScoped = false) (v : (⟨S50000x128, .f32⟩ : BufTy).Contents (Elt F)) :
    (TRef.of (T := ⟨S50000x128, .f32⟩) main_call1_v0 h1 h2 h3).toBuf (Val := Elt F) v = v := rfl
theorem ofBuf_main_call1_v0 (h1 : (main_call1_v0 : Ref sig .tc).ty = ⟨S50000x128, .f32⟩) (h2 : (main_call1_v0 : Ref sig .tc).space ≠ .host) (h3 : (main_call1_v0 : Ref sig .tc).isScoped = false) (v : (⟨S50000x128, .f32⟩ : BufTy).Contents (Elt F)) :
    (TRef.of (T := ⟨S50000x128, .f32⟩) main_call1_v0 h1 h2 h3).ofBuf (Val := Elt F) v = v := rfl

theorem toBuf_main_v46 (h1 : (main_v46 : Ref sig .tc).ty = ⟨S50000x128, .f32⟩) (h2 : (main_v46 : Ref sig .tc).space ≠ .host) (h3 : (main_v46 : Ref sig .tc).isScoped = false) (v : (⟨S50000x128, .f32⟩ : BufTy).Contents (Elt F)) :
    (TRef.of (T := ⟨S50000x128, .f32⟩) main_v46 h1 h2 h3).toBuf (Val := Elt F) v = v := rfl
theorem ofBuf_main_v46 (h1 : (main_v46 : Ref sig .tc).ty = ⟨S50000x128, .f32⟩) (h2 : (main_v46 : Ref sig .tc).space ≠ .host) (h3 : (main_v46 : Ref sig .tc).isScoped = false) (v : (⟨S50000x128, .f32⟩ : BufTy).Contents (Elt F)) :
    (TRef.of (T := ⟨S50000x128, .f32⟩) main_v46 h1 h2 h3).ofBuf (Val := Elt F) v = v := rfl

theorem toBuf_main_v47 (h1 : (main_v47 : Ref sig .tc).ty = ⟨S50000x128, .f32⟩) (h2 : (main_v47 : Ref sig .tc).space ≠ .host) (h3 : (main_v47 : Ref sig .tc).isScoped = false) (v : (⟨S50000x128, .f32⟩ : BufTy).Contents (Elt F)) :
    (TRef.of (T := ⟨S50000x128, .f32⟩) main_v47 h1 h2 h3).toBuf (Val := Elt F) v = v := rfl
theorem ofBuf_main_v47 (h1 : (main_v47 : Ref sig .tc).ty = ⟨S50000x128, .f32⟩) (h2 : (main_v47 : Ref sig .tc).space ≠ .host) (h3 : (main_v47 : Ref sig .tc).isScoped = false) (v : (⟨S50000x128, .f32⟩ : BufTy).Contents (Elt F)) :
    (TRef.of (T := ⟨S50000x128, .f32⟩) main_v47 h1 h2 h3).ofBuf (Val := Elt F) v = v := rfl

theorem toBuf_main_call2_cst (h1 : (main_call2_cst : Ref sig .tc).ty = ⟨S_, .f32⟩) (h2 : (main_call2_cst : Ref sig .tc).space ≠ .host) (h3 : (main_call2_cst : Ref sig .tc).isScoped = false) (v : (⟨S_, .f32⟩ : BufTy).Contents (Elt F)) :
    (TRef.of (T := ⟨S_, .f32⟩) main_call2_cst h1 h2 h3).toBuf (Val := Elt F) v = v := rfl
theorem ofBuf_main_call2_cst (h1 : (main_call2_cst : Ref sig .tc).ty = ⟨S_, .f32⟩) (h2 : (main_call2_cst : Ref sig .tc).space ≠ .host) (h3 : (main_call2_cst : Ref sig .tc).isScoped = false) (v : (⟨S_, .f32⟩ : BufTy).Contents (Elt F)) :
    (TRef.of (T := ⟨S_, .f32⟩) main_call2_cst h1 h2 h3).ofBuf (Val := Elt F) v = v := rfl

theorem toBuf_main_v64 (h1 : (main_v64 : Ref sig .tc).ty = ⟨S50000x16, .f32⟩) (h2 : (main_v64 : Ref sig .tc).space ≠ .host) (h3 : (main_v64 : Ref sig .tc).isScoped = false) (v : (⟨S50000x16, .f32⟩ : BufTy).Contents (Elt F)) :
    (TRef.of (T := ⟨S50000x16, .f32⟩) main_v64 h1 h2 h3).toBuf (Val := Elt F) v = v := rfl
theorem ofBuf_main_v64 (h1 : (main_v64 : Ref sig .tc).ty = ⟨S50000x16, .f32⟩) (h2 : (main_v64 : Ref sig .tc).space ≠ .host) (h3 : (main_v64 : Ref sig .tc).isScoped = false) (v : (⟨S50000x16, .f32⟩ : BufTy).Contents (Elt F)) :
    (TRef.of (T := ⟨S50000x16, .f32⟩) main_v64 h1 h2 h3).ofBuf (Val := Elt F) v = v := rfl

theorem toBuf_main_call2_v0 (h1 : (main_call2_v0 : Ref sig .tc).ty = ⟨S50000, .f32⟩) (h2 : (main_call2_v0 : Ref sig .tc).space ≠ .host) (h3 : (main_call2_v0 : Ref sig .tc).isScoped = false) (v : (⟨S50000, .f32⟩ : BufTy).Contents (Elt F)) :
    (TRef.of (T := ⟨S50000, .f32⟩) main_call2_v0 h1 h2 h3).toBuf (Val := Elt F) v = v := rfl
theorem ofBuf_main_call2_v0 (h1 : (main_call2_v0 : Ref sig .tc).ty = ⟨S50000, .f32⟩) (h2 : (main_call2_v0 : Ref sig .tc).space ≠ .host) (h3 : (main_call2_v0 : Ref sig .tc).isScoped = false) (v : (⟨S50000, .f32⟩ : BufTy).Contents (Elt F)) :
    (TRef.of (T := ⟨S50000, .f32⟩) main_call2_v0 h1 h2 h3).ofBuf (Val := Elt F) v = v := rfl

theorem toBuf_main_call2_cst_0 (h1 : (main_call2_cst_0 : Ref sig .tc).ty = ⟨S_, .f32⟩) (h2 : (main_call2_cst_0 : Ref sig .tc).space ≠ .host) (h3 : (main_call2_cst_0 : Ref sig .tc).isScoped = false) (v : (⟨S_, .f32⟩ : BufTy).Contents (Elt F)) :
    (TRef.of (T := ⟨S_, .f32⟩) main_call2_cst_0 h1 h2 h3).toBuf (Val := Elt F) v = v := rfl
theorem ofBuf_main_call2_cst_0 (h1 : (main_call2_cst_0 : Ref sig .tc).ty = ⟨S_, .f32⟩) (h2 : (main_call2_cst_0 : Ref sig .tc).space ≠ .host) (h3 : (main_call2_cst_0 : Ref sig .tc).isScoped = false) (v : (⟨S_, .f32⟩ : BufTy).Contents (Elt F)) :
    (TRef.of (T := ⟨S_, .f32⟩) main_call2_cst_0 h1 h2 h3).ofBuf (Val := Elt F) v = v := rfl

theorem toBuf_main_call2_v1 (h1 : (main_call2_v1 : Ref sig .tc).ty = ⟨S50000, .f32⟩) (h2 : (main_call2_v1 : Ref sig .tc).space ≠ .host) (h3 : (main_call2_v1 : Ref sig .tc).isScoped = false) (v : (⟨S50000, .f32⟩ : BufTy).Contents (Elt F)) :
    (TRef.of (T := ⟨S50000, .f32⟩) main_call2_v1 h1 h2 h3).toBuf (Val := Elt F) v = v := rfl
theorem ofBuf_main_call2_v1 (h1 : (main_call2_v1 : Ref sig .tc).ty = ⟨S50000, .f32⟩) (h2 : (main_call2_v1 : Ref sig .tc).space ≠ .host) (h3 : (main_call2_v1 : Ref sig .tc).isScoped = false) (v : (⟨S50000, .f32⟩ : BufTy).Contents (Elt F)) :
    (TRef.of (T := ⟨S50000, .f32⟩) main_call2_v1 h1 h2 h3).ofBuf (Val := Elt F) v = v := rfl

theorem toBuf_main_call2_v2 (h1 : (main_call2_v2 : Ref sig .tc).ty = ⟨S50000, .f32⟩) (h2 : (main_call2_v2 : Ref sig .tc).space ≠ .host) (h3 : (main_call2_v2 : Ref sig .tc).isScoped = false) (v : (⟨S50000, .f32⟩ : BufTy).Contents (Elt F)) :
    (TRef.of (T := ⟨S50000, .f32⟩) main_call2_v2 h1 h2 h3).toBuf (Val := Elt F) v = v := rfl
theorem ofBuf_main_call2_v2 (h1 : (main_call2_v2 : Ref sig .tc).ty = ⟨S50000, .f32⟩) (h2 : (main_call2_v2 : Ref sig .tc).space ≠ .host) (h3 : (main_call2_v2 : Ref sig .tc).isScoped = false) (v : (⟨S50000, .f32⟩ : BufTy).Contents (Elt F)) :
    (TRef.of (T := ⟨S50000, .f32⟩) main_call2_v2 h1 h2 h3).ofBuf (Val := Elt F) v = v := rfl

theorem toBuf_main_call2_v3 (h1 : (main_call2_v3 : Ref sig .tc).ty = ⟨S50000x1, .f32⟩) (h2 : (main_call2_v3 : Ref sig .tc).space ≠ .host) (h3 : (main_call2_v3 : Ref sig .tc).isScoped = false) (v : (⟨S50000x1, .f32⟩ : BufTy).Contents (Elt F)) :
    (TRef.of (T := ⟨S50000x1, .f32⟩) main_call2_v3 h1 h2 h3).toBuf (Val := Elt F) v = v := rfl
theorem ofBuf_main_call2_v3 (h1 : (main_call2_v3 : Ref sig .tc).ty = ⟨S50000x1, .f32⟩) (h2 : (main_call2_v3 : Ref sig .tc).space ≠ .host) (h3 : (main_call2_v3 : Ref sig .tc).isScoped = false) (v : (⟨S50000x1, .f32⟩ : BufTy).Contents (Elt F)) :
    (TRef.of (T := ⟨S50000x1, .f32⟩) main_call2_v3 h1 h2 h3).ofBuf (Val := Elt F) v = v := rfl

theorem toBuf_main_call2_v4 (h1 : (main_call2_v4 : Ref sig .tc).ty = ⟨S50000x16, .f32⟩) (h2 : (main_call2_v4 : Ref sig .tc).space ≠ .host) (h3 : (main_call2_v4 : Ref sig .tc).isScoped = false) (v : (⟨S50000x16, .f32⟩ : BufTy).Contents (Elt F)) :
    (TRef.of (T := ⟨S50000x16, .f32⟩) main_call2_v4 h1 h2 h3).toBuf (Val := Elt F) v = v := rfl
theorem ofBuf_main_call2_v4 (h1 : (main_call2_v4 : Ref sig .tc).ty = ⟨S50000x16, .f32⟩) (h2 : (main_call2_v4 : Ref sig .tc).space ≠ .host) (h3 : (main_call2_v4 : Ref sig .tc).isScoped = false) (v : (⟨S50000x16, .f32⟩ : BufTy).Contents (Elt F)) :
    (TRef.of (T := ⟨S50000x16, .f32⟩) main_call2_v4 h1 h2 h3).ofBuf (Val := Elt F) v = v := rfl

theorem toBuf_main_call2_v5 (h1 : (main_call2_v5 : Ref sig .tc).ty = ⟨S50000x16, .f32⟩) (h2 : (main_call2_v5 : Ref sig .tc).space ≠ .host) (h3 : (main_call2_v5 : Ref sig .tc).isScoped = false) (v : (⟨S50000x16, .f32⟩ : BufTy).Contents (Elt F)) :
    (TRef.of (T := ⟨S50000x16, .f32⟩) main_call2_v5 h1 h2 h3).toBuf (Val := Elt F) v = v := rfl
theorem ofBuf_main_call2_v5 (h1 : (main_call2_v5 : Ref sig .tc).ty = ⟨S50000x16, .f32⟩) (h2 : (main_call2_v5 : Ref sig .tc).space ≠ .host) (h3 : (main_call2_v5 : Ref sig .tc).isScoped = false) (v : (⟨S50000x16, .f32⟩ : BufTy).Contents (Elt F)) :
    (TRef.of (T := ⟨S50000x16, .f32⟩) main_call2_v5 h1 h2 h3).ofBuf (Val := Elt F) v = v := rfl

theorem toBuf_main_call2_v6 (h1 : (main_call2_v6 : Ref sig .tc).ty = ⟨S50000x16, .f32⟩) (h2 : (main_call2_v6 : Ref sig .tc).space ≠ .host) (h3 : (main_call2_v6 : Ref sig .tc).isScoped = false) (v : (⟨S50000x16, .f32⟩ : BufTy).Contents (Elt F)) :
    (TRef.of (T := ⟨S50000x16, .f32⟩) main_call2_v6 h1 h2 h3).toBuf (Val := Elt F) v = v := rfl
theorem ofBuf_main_call2_v6 (h1 : (main_call2_v6 : Ref sig .tc).ty = ⟨S50000x16, .f32⟩) (h2 : (main_call2_v6 : Ref sig .tc).space ≠ .host) (h3 : (main_call2_v6 : Ref sig .tc).isScoped = false) (v : (⟨S50000x16, .f32⟩ : BufTy).Contents (Elt F)) :
    (TRef.of (T := ⟨S50000x16, .f32⟩) main_call2_v6 h1 h2 h3).ofBuf (Val := Elt F) v = v := rfl

theorem toBuf_main_call2_cst_1 (h1 : (main_call2_cst_1 : Ref sig .tc).ty = ⟨S_, .f32⟩) (h2 : (main_call2_cst_1 : Ref sig .tc).space ≠ .host) (h3 : (main_call2_cst_1 : Ref sig .tc).isScoped = false) (v : (⟨S_, .f32⟩ : BufTy).Contents (Elt F)) :
    (TRef.of (T := ⟨S_, .f32⟩) main_call2_cst_1 h1 h2 h3).toBuf (Val := Elt F) v = v := rfl
theorem ofBuf_main_call2_cst_1 (h1 : (main_call2_cst_1 : Ref sig .tc).ty = ⟨S_, .f32⟩) (h2 : (main_call2_cst_1 : Ref sig .tc).space ≠ .host) (h3 : (main_call2_cst_1 : Ref sig .tc).isScoped = false) (v : (⟨S_, .f32⟩ : BufTy).Contents (Elt F)) :
    (TRef.of (T := ⟨S_, .f32⟩) main_call2_cst_1 h1 h2 h3).ofBuf (Val := Elt F) v = v := rfl

theorem toBuf_main_call2_v7 (h1 : (main_call2_v7 : Ref sig .tc).ty = ⟨S50000, .f32⟩) (h2 : (main_call2_v7 : Ref sig .tc).space ≠ .host) (h3 : (main_call2_v7 : Ref sig .tc).isScoped = false) (v : (⟨S50000, .f32⟩ : BufTy).Contents (Elt F)) :
    (TRef.of (T := ⟨S50000, .f32⟩) main_call2_v7 h1 h2 h3).toBuf (Val := Elt F) v = v := rfl
theorem ofBuf_main_call2_v7 (h1 : (main_call2_v7 : Ref sig .tc).ty = ⟨S50000, .f32⟩) (h2 : (main_call2_v7 : Ref sig .tc).space ≠ .host) (h3 : (main_call2_v7 : Ref sig .tc).isScoped = false) (v : (⟨S50000, .f32⟩ : BufTy).Contents (Elt F)) :
    (TRef.of (T := ⟨S50000, .f32⟩) main_call2_v7 h1 h2 h3).ofBuf (Val := Elt F) v = v := rfl

theorem toBuf_main_call2_v8 (h1 : (main_call2_v8 : Ref sig .tc).ty = ⟨S50000x1, .f32⟩) (h2 : (main_call2_v8 : Ref sig .tc).space ≠ .host) (h3 : (main_call2_v8 : Ref sig .tc).isScoped = false) (v : (⟨S50000x1, .f32⟩ : BufTy).Contents (Elt F)) :
    (TRef.of (T := ⟨S50000x1, .f32⟩) main_call2_v8 h1 h2 h3).toBuf (Val := Elt F) v = v := rfl
theorem ofBuf_main_call2_v8 (h1 : (main_call2_v8 : Ref sig .tc).ty = ⟨S50000x1, .f32⟩) (h2 : (main_call2_v8 : Ref sig .tc).space ≠ .host) (h3 : (main_call2_v8 : Ref sig .tc).isScoped = false) (v : (⟨S50000x1, .f32⟩ : BufTy).Contents (Elt F)) :
    (TRef.of (T := ⟨S50000x1, .f32⟩) main_call2_v8 h1 h2 h3).ofBuf (Val := Elt F) v = v := rfl

theorem toBuf_main_call2_v9 (h1 : (main_call2_v9 : Ref sig .tc).ty = ⟨S50000x1, .f32⟩) (h2 : (main_call2_v9 : Ref sig .tc).space ≠ .host) (h3 : (main_call2_v9 : Ref sig .tc).isScoped = false) (v : (⟨S50000x1, .f32⟩ : BufTy).Contents (Elt F)) :
    (TRef.of (T := ⟨S50000x1, .f32⟩) main_call2_v9 h1 h2 h3).toBuf (Val := Elt F) v = v := rfl
theorem ofBuf_main_call2_v9 (h1 : (main_call2_v9 : Ref sig .tc).ty = ⟨S50000x1, .f32⟩) (h2 : (main_call2_v9 : Ref sig .tc).space ≠ .host) (h3 : (main_call2_v9 : Ref sig .tc).isScoped = false) (v : (⟨S50000x1, .f32⟩ : BufTy).Contents (Elt F)) :
    (TRef.of (T := ⟨S50000x1, .f32⟩) main_call2_v9 h1 h2 h3).ofBuf (Val := Elt F) v = v := rfl

theorem toBuf_main_call2_v10 (h1 : (main_call2_v10 : Ref sig .tc).ty = ⟨S50000x16, .f32⟩) (h2 : (main_call2_v10 : Ref sig .tc).space ≠ .host) (h3 : (main_call2_v10 : Ref sig .tc).isScoped = false) (v : (⟨S50000x16, .f32⟩ : BufTy).Contents (Elt F)) :
    (TRef.of (T := ⟨S50000x16, .f32⟩) main_call2_v10 h1 h2 h3).toBuf (Val := Elt F) v = v := rfl
theorem ofBuf_main_call2_v10 (h1 : (main_call2_v10 : Ref sig .tc).ty = ⟨S50000x16, .f32⟩) (h2 : (main_call2_v10 : Ref sig .tc).space ≠ .host) (h3 : (main_call2_v10 : Ref sig .tc).isScoped = false) (v : (⟨S50000x16, .f32⟩ : BufTy).Contents (Elt F)) :
    (TRef.of (T := ⟨S50000x16, .f32⟩) main_call2_v10 h1 h2 h3).ofBuf (Val := Elt F) v = v := rfl

theorem toBuf_main_v65 (h1 : (main_v65 : Ref sig .tc).ty = ⟨S50000x16, .f32⟩) (h2 : (main_v65 : Ref sig .tc).space ≠ .host) (h3 : (main_v65 : Ref sig .tc).isScoped = false) (v : (⟨S50000x16, .f32⟩ : BufTy).Contents (Elt F)) :
    (TRef.of (T := ⟨S50000x16, .f32⟩) main_v65 h1 h2 h3).toBuf (Val := Elt F) v = v := rfl
theorem ofBuf_main_v65 (h1 : (main_v65 : Ref sig .tc).ty = ⟨S50000x16, .f32⟩) (h2 : (main_v65 : Ref sig .tc).space ≠ .host) (h3 : (main_v65 : Ref sig .tc).isScoped = false) (v : (⟨S50000x16, .f32⟩ : BufTy).Contents (Elt F)) :
    (TRef.of (T := ⟨S50000x16, .f32⟩) main_v65 h1 h2 h3).ofBuf (Val := Elt F) v = v := rfl

end Cert.ReferenceIdeal.Casts

end
-- ==== Proof.RefRun.lean ====
/-
  The reference's run: every weakly fair execution of its @main terminates, nothing faults, the result buffer ends at
  the composed term of the six arguments that its 98 host operations spell, and the arguments end as launched.

  The reference launches no kernel, so its @main IS a line of host operations, and the run of a line is the fold of the
  operations' results over the launch contents. Evaluated one operation at a time, the fold at the result buffer is the
  operations' functions composed in data-flow order; a `concatenate`'s two operands are evaluated like any other
  operand once the joined array is written as a function of them (module LibJoin). No operation writes an argument's
  buffer, so the fold at an argument walks back to the launch memory.
-/
import proofs.«119963_j43791486550061_1_alg».proof.Proof.RefOps
import proofs.«119963_j43791486550061_1_alg».proof.Proof.LibJoin
import proofs.«119963_j43791486550061_1_alg».proof.Proof.RefCasts

noncomputable section

namespace Cert.ReferenceIdeal.Hand

open Cert.ReferenceIdeal Cert.ReferenceIdeal.Gen Cert.ReferenceIdeal.RunP Cert.LibJoin Idealize.ShloMosaic Idealize.ShloMosaic.TcCoe Idealize.SL.Sem Idealize.ShloMosaic.StableHlo

variable {F : FTy → Type} [FloatOps F]

set_option maxRecDepth 16384 in
set_option maxHeartbeats 39200000 in
/-- The line's fold at the result buffer is the composed term. -/
theorem result_eq (V : Valuation τ sig (Elt F)) (m : (ℓ : Loc nD τ sig) → Buf (Elt F) ℓ) (c : Dev nD)
    (hV : ∀ b : Ref sig .tc, V (Proc.devRef .tc b) = m ((c.tc : Thread nD τ).loc b)) :
    after (ops (F := F)) V (Proc.devRef .tc main_v65) = res_main_v65 m c := by
  unfold res_main_v65
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', join2_def]
  simp only [hV, Cert.ReferenceIdeal.Casts.toBuf_main_cst_2, Cert.ReferenceIdeal.Casts.ofBuf_main_cst_2, Cert.ReferenceIdeal.Casts.toBuf_main_call0_v0, Cert.ReferenceIdeal.Casts.ofBuf_main_call0_v0, Cert.ReferenceIdeal.Casts.toBuf_main_call0_v1, Cert.ReferenceIdeal.Casts.ofBuf_main_call0_v1, Cert.ReferenceIdeal.Casts.toBuf_main_v12, Cert.ReferenceIdeal.Casts.ofBuf_main_v12, Cert.ReferenceIdeal.Casts.toBuf_main_v13, Cert.ReferenceIdeal.Casts.ofBuf_main_v13, Cert.ReferenceIdeal.Casts.toBuf_main_v14, Cert.ReferenceIdeal.Casts.ofBuf_main_v14, Cert.ReferenceIdeal.Casts.toBuf_main_call1_cst, Cert.ReferenceIdeal.Casts.ofBuf_main_call1_cst, Cert.ReferenceIdeal.Casts.toBuf_main_call1_v0, Cert.ReferenceIdeal.Casts.ofBuf_main_call1_v0, Cert.ReferenceIdeal.Casts.toBuf_main_v46, Cert.ReferenceIdeal.Casts.ofBuf_main_v46, Cert.ReferenceIdeal.Casts.toBuf_main_v47, Cert.ReferenceIdeal.Casts.ofBuf_main_v47, Cert.ReferenceIdeal.Casts.toBuf_main_call2_cst, Cert.ReferenceIdeal.Casts.ofBuf_main_call2_cst, Cert.ReferenceIdeal.Casts.toBuf_main_v64, Cert.ReferenceIdeal.Casts.ofBuf_main_v64, Cert.ReferenceIdeal.Casts.toBuf_main_call2_v0, Cert.ReferenceIdeal.Casts.ofBuf_main_call2_v0, Cert.ReferenceIdeal.Casts.toBuf_main_call2_cst_0, Cert.ReferenceIdeal.Casts.ofBuf_main_call2_cst_0, Cert.ReferenceIdeal.Casts.toBuf_main_call2_v1, Cert.ReferenceIdeal.Casts.ofBuf_main_call2_v1, Cert.ReferenceIdeal.Casts.toBuf_main_call2_v2, Cert.ReferenceIdeal.Casts.ofBuf_main_call2_v2, Cert.ReferenceIdeal.Casts.toBuf_main_call2_v3, Cert.ReferenceIdeal.Casts.ofBuf_main_call2_v3, Cert.ReferenceIdeal.Casts.toBuf_main_call2_v4, Cert.ReferenceIdeal.Casts.ofBuf_main_call2_v4, Cert.ReferenceIdeal.Casts.toBuf_main_call2_v5, Cert.ReferenceIdeal.Casts.ofBuf_main_call2_v5, Cert.ReferenceIdeal.Casts.toBuf_main_call2_v6, Cert.ReferenceIdeal.Casts.ofBuf_main_call2_v6, Cert.ReferenceIdeal.Casts.toBuf_main_call2_cst_1, Cert.ReferenceIdeal.Casts.ofBuf_main_call2_cst_1, Cert.ReferenceIdeal.Casts.toBuf_main_call2_v7, Cert.ReferenceIdeal.Casts.ofBuf_main_call2_v7, Cert.ReferenceIdeal.Casts.toBuf_main_call2_v8, Cert.ReferenceIdeal.Casts.ofBuf_main_call2_v8, Cert.ReferenceIdeal.Casts.toBuf_main_call2_v9, Cert.ReferenceIdeal.Casts.ofBuf_main_call2_v9, Cert.ReferenceIdeal.Casts.toBuf_main_call2_v10, Cert.ReferenceIdeal.Casts.ofBuf_main_call2_v10, Cert.ReferenceIdeal.Casts.toBuf_main_v65, Cert.ReferenceIdeal.Casts.ofBuf_main_v65]
  rfl

set_option maxRecDepth 8192 in
set_option maxHeartbeats 39200000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = res_main_v65 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v65).trans (result_eq _ m c fun _ => rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.Rows.lean ====
/-
  What each of the two kernel launches leaves in its output array: the whole matrix product of its operand arrays.

  A launch runs over five grid points. Point t reads rows 10000·t … 10000·t + 9999 of the left operand and all of the
  right operand, multiplies them into a zero accumulator and stores the 10000 rows of the result; the pipeline writes
  that block back as rows 10000·t … of the output array. Entry (r, c) of a product depends on row r of the left factor
  only, so the block a point stores is the same rows of the product of the WHOLE left operand (the row-block law of
  module LibPlainDot); the five blocks tile the 50000 rows, so the array ends at the whole product. Stated for any
  contents `V` of the buffers at the launch; nothing here needs the entries finite.
-/
import proofs.«119963_j43791486550061_1_alg».proof.Proof.Gen.KernelIdeal.Frame
import proofs.«119963_j43791486550061_1_alg».proof.ReferenceIdeal
import proofs.«119963_j43791486550061_1_alg».proof.Proof.Gen.ReferenceIdeal
import proofs.«119963_j43791486550061_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Rows

open Cert.KernelIdeal Cert.KernelIdeal.Gen Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## Launch 0: [50000, 256] × [256, 128] in blocks of 10000 rows -/

section Launch0

variable (V : (c : Dev nD) → (b : Ref sig .tc) → Buf (Elt Ideal) ((c : Thread nD τ).loc b))

/-- The whole product of the two operand arrays, as the host spells it. -/
abbrev whole0 (A : FVec Ideal S50000x256 .bf16) (W : FVec Ideal S256x128 .bf16) : FVec Ideal S50000x128 .f32 :=
  Host.dotGeneral Cert.ReferenceIdeal.dot_S50000x256_S256x128_S50000x128_1_0_0_1_n_n none A W

/-- What one grid point stores: if its left block is rows `off … off + 10000` of `A` and its right block is all of
    `W`, entry (p, q) of the stored block is entry (off + p, q) of the whole product `A · W`. -/
theorem stored0 (A : FVec Ideal S50000x256 .bf16) (W : FVec Ideal S256x128 .bf16) (off : Nat) (hoff : off + 10000 ≤ 50000)
    (x0 : Vec Ideal S10000x256 .bf16) (x1 : Vec Ideal S256x128 .bf16)
    (h0 : ∀ y : S10000x256.Idx, x0 y = A (ix2 ⟨off + (y 0).val, by have := idx2_lt0 y; omega⟩ (y 1)))
    (h1 : ∀ y : S256x128.Idx, x1 y = W y) (p : Fin 10000) (q : Fin 128) :
    k0_pay1 (F := Ideal) x0 x1 (ix2 p q) = whole0 A W (ix2 ⟨off + p.val, by have := p.isLt; omega⟩ q) := by
  unfold k0_pay1
  rw [shapeCast_self, shapeCast_self, show x0 = _ from funext h0, show x1 = W from funext h1]
  exact (Cert.LibPlainDot.dotGeneral_rows (M := 50000) (K := 256) (N := 128) (B := 10000) (off := off) _ hoff _ none none .single A W p q).symm

/-- The printed index maps over the five grid points: the left operand's block moves with the output's, down the
    rows; the right operand's block stays; nothing moves along the columns. -/
theorem maps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks is some grid point's. -/
theorem onto0 : ∀ q : Fin 5, ∃ t : Fin cfg0.N, win0_2.index t (0 : Fin 2) = q.val :=
  (by decide +kernel : ∀ q : Fin 5, ∃ t : Fin grid0.N, win0_2.index t (0 : Fin 2) = q.val)

/-- What grid point `t` writes back is block `t` of the whole product of the operand arrays as the launch finds them. -/
theorem flushed0 (c : Dev nD) (t : Fin cfg0.N) :
    (dat0 V c).flushed 2 t = ((cfg0.win 2).blk t).view.read (Elt Ideal) (whole0 (V c main_v30) (V c main_v31)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  obtain ⟨e0, e1, e2, e3, e4, e5⟩ := maps0 t
  funext j
  obtain ⟨p, q, rfl⟩ : ∃ (p : Fin 10000) (q : Fin 128), j = ix2 p q := ⟨j 0, j 1, eq_ix2 j⟩
  refine (stored0 (V c main_v30) (V c main_v31) (win0_2.index t (0 : Fin 2) * 10000) (by omega) (iblk0 V c 0 t) (iblk0 V c 1 t) ?_ ?_ p q).trans ?_
  · intro y
    show V c main_v30 (((cfg0.win 0).blk t).view.emb y) = V c main_v30 _
    refine congrArg _ (funext fun a => Fin.ext ?_)
    match a with
    | ⟨0, _⟩ => show win0_0.index t (0 : Fin 2) * 10000 + 1 * (y 0).val = win0_2.index t (0 : Fin 2) * 10000 + (y 0).val; omega
    | ⟨1, _⟩ => show win0_0.index t (1 : Fin 2) * 256 + 1 * (y 1).val = (y 1).val; omega
  · intro y
    show V c main_v31 (((cfg0.win 1).blk t).view.emb y) = V c main_v31 y
    refine congrArg _ (funext fun a => Fin.ext ?_)
    match a with
    | ⟨0, _⟩ => show win0_1.index t (0 : Fin 2) * 256 + 1 * (y 0).val = (y 0).val; omega
    | ⟨1, _⟩ => show win0_1.index t (1 : Fin 2) * 128 + 1 * (y 1).val = (y 1).val; omega
  · show whole0 (V c main_v30) (V c main_v31) _ = whole0 (V c main_v30) (V c main_v31) (((cfg0.win 2).blk t).view.emb (ix2 p q))
    refine congrArg _ (funext fun a => Fin.ext ?_)
    match a with
    | ⟨0, _⟩ => show win0_2.index t (0 : Fin 2) * 10000 + p.val = win0_2.index t (0 : Fin 2) * 10000 + 1 * p.val; omega
    | ⟨1, _⟩ => show q.val = win0_2.index t (1 : Fin 2) * 128 + 1 * q.val; omega

/-- An entry of the output array lies in grid point `t`'s block iff its row is one of the block's 10000 rows. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The five row blocks cover the output array: row r lies in block r / 10000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 10000, by omega⟩
  have q0 : win0_2.index t (0 : Fin 2) = (i 0).val / 10000 := ht
  obtain ⟨e0, e1, e2, e3, e4, e5⟩ := maps0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- After the launch the output array holds the whole product of the operand arrays as the launch found them. -/
theorem product0 (c : Dev nD) : (dat0 V c).arrAt 2 cfg0.N = whole0 (V c main_v30) (V c main_v31) :=
  (dat0 V c).arrAt_eq_of_cover 2 (whole0 (V c main_v30) (V c main_v31)) (fun t _ => flushed0 V c t) cover0

end Launch0

/-! ## Launch 1: [50000, 128] × [128, 16] in blocks of 10000 rows -/

section Launch1

variable (V : (c : Dev nD) → (b : Ref sig .tc) → Buf (Elt Ideal) ((c : Thread nD τ).loc b))

/-- The whole product of the two operand arrays, as the host spells it. -/
abbrev whole1 (A : FVec Ideal S50000x128 .bf16) (W : FVec Ideal S128x16 .bf16) : FVec Ideal S50000x16 .f32 :=
  Host.dotGeneral Cert.ReferenceIdeal.dot_S50000x128_S128x16_S50000x16_1_0_0_1_n_n none A W

/-- What one grid point stores: if its left block is rows `off … off + 10000` of `A` and its right block is all of
    `W`, entry (p, q) of the stored block is entry (off + p, q) of the whole product `A · W`. -/
theorem stored1 (A : FVec Ideal S50000x128 .bf16) (W : FVec Ideal S128x16 .bf16) (off : Nat) (hoff : off + 10000 ≤ 50000)
    (x0 : Vec Ideal S10000x128 .bf16) (x1 : Vec Ideal S128x16 .bf16)
    (h0 : ∀ y : S10000x128.Idx, x0 y = A (ix2 ⟨off + (y 0).val, by have := idx2_lt0 y; omega⟩ (y 1)))
    (h1 : ∀ y : S128x16.Idx, x1 y = W y) (p : Fin 10000) (q : Fin 16) :
    k1_pay1 (F := Ideal) x0 x1 (ix2 p q) = whole1 A W (ix2 ⟨off + p.val, by have := p.isLt; omega⟩ q) := by
  unfold k1_pay1
  rw [shapeCast_self, shapeCast_self, show x0 = _ from funext h0, show x1 = W from funext h1]
  exact (Cert.LibPlainDot.dotGeneral_rows (M := 50000) (K := 128) (N := 16) (B := 10000) (off := off) _ hoff _ none none .single A W p q).symm

/-- The printed index maps over the five grid points: the left operand's block moves with the output's, down the
    rows; the right operand's block stays; nothing moves along the columns. -/
theorem maps1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 4 :=
  (by decide +kernel : ∀ t : Fin grid1.N, _)

/-- Every one of the five row blocks is some grid point's. -/
theorem onto1 : ∀ q : Fin 5, ∃ t : Fin cfg1.N, win1_2.index t (0 : Fin 2) = q.val :=
  (by decide +kernel : ∀ q : Fin 5, ∃ t : Fin grid1.N, win1_2.index t (0 : Fin 2) = q.val)

/-- What grid point `t` writes back is block `t` of the whole product of the operand arrays as the launch finds them. -/
theorem flushed1 (c : Dev nD) (t : Fin cfg1.N) :
    (dat1 V c).flushed 2 t = ((cfg1.win 2).blk t).view.read (Elt Ideal) (whole1 (V c main_v50) (V c main_v51)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x16) hz]
  obtain ⟨e0, e1, e2, e3, e4, e5⟩ := maps1 t
  funext j
  obtain ⟨p, q, rfl⟩ : ∃ (p : Fin 10000) (q : Fin 16), j = ix2 p q := ⟨j 0, j 1, eq_ix2 j⟩
  refine (stored1 (V c main_v50) (V c main_v51) (win1_2.index t (0 : Fin 2) * 10000) (by omega) (iblk1 V c 0 t) (iblk1 V c 1 t) ?_ ?_ p q).trans ?_
  · intro y
    show V c main_v50 (((cfg1.win 0).blk t).view.emb y) = V c main_v50 _
    refine congrArg _ (funext fun a => Fin.ext ?_)
    match a with
    | ⟨0, _⟩ => show win1_0.index t (0 : Fin 2) * 10000 + 1 * (y 0).val = win1_2.index t (0 : Fin 2) * 10000 + (y 0).val; omega
    | ⟨1, _⟩ => show win1_0.index t (1 : Fin 2) * 128 + 1 * (y 1).val = (y 1).val; omega
  · intro y
    show V c main_v51 (((cfg1.win 1).blk t).view.emb y) = V c main_v51 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 16 + 1 * (y 1).val = (y 1).val; omega
  · show whole1 (V c main_v50) (V c main_v51) _ = whole1 (V c main_v50) (V c main_v51) (((cfg1.win 2).blk t).view.emb (ix2 p q))
    refine congrArg _ (funext fun a => Fin.ext ?_)
    match a with
    | ⟨0, _⟩ => show win1_2.index t (0 : Fin 2) * 10000 + p.val = win1_2.index t (0 : Fin 2) * 10000 + 1 * p.val; omega
    | ⟨1, _⟩ => show q.val = win1_2.index t (1 : Fin 2) * 16 + 1 * q.val; omega

/-- An entry of the output array lies in grid point `t`'s block iff its row is one of the block's 10000 rows. -/
theorem mem_blk1 (t : Fin cfg1.N) (i : S50000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole main_v52).slice (win1_2.rect t)).set ↔ _
  rw [View.set_slice_whole, Rect.mem_set_unit]
  exact Iff.rfl

/-- The five row blocks cover the output array: row r lies in block r / 10000. -/
theorem cover1 (i : S50000x16.Idx) : ∃ t : Fin cfg1.N, (cfg1.win 2).flush t = true ∧ i ∈ ((cfg1.win 2).blk t).view.set := by
  have hi0 : (i 0).val < 50000 := (i 0).isLt
  have hi1 : (i 1).val < 16 := (i 1).isLt
  obtain ⟨t, ht⟩ := onto1 ⟨(i 0).val / 10000, by omega⟩
  have q0 : win1_2.index t (0 : Fin 2) = (i 0).val / 10000 := ht
  obtain ⟨e0, e1, e2, e3, e4, e5⟩ := maps1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 16 ≤ (i 1).val ∧ (i 1).val < win1_2.index t (1 : Fin 2) * 16 + 16; omega

/-- After the launch the output array holds the whole product of the operand arrays as the launch found them. -/
theorem product1 (c : Dev nD) : (dat1 V c).arrAt 2 cfg1.N = whole1 (V c main_v50) (V c main_v51) :=
  (dat1 V c).arrAt_eq_of_cover 2 (whole1 (V c main_v50) (V c main_v51)) (fun t _ => flushed1 V c t) cover1

end Launch1

end Cert.KernelIdeal.Rows

end
-- ==== Proof.Line.lean ====
/-
  The two kernel launches of the program, each written as ONE host operation on the same buffers.

  A launch of the row-tiled product kernel reads its two operand arrays and leaves, in its output array, the whole
  matrix product of the two (module Rows). As far as any later reader of the buffers can tell, that is what a single
  `dot_general` on the same three buffers would have done. `prod0` and `prod1` are those two operations, and `line`
  is the program's @main with each launch replaced by its operation: every host stretch in order, the first product
  after the third stretch and the second after the sixth.
-/
import proofs.«119963_j43791486550061_1_alg».proof.Proof.Gen.KernelIdeal.Launch
import proofs.«119963_j43791486550061_1_alg».proof.ReferenceIdeal
import proofs.«119963_j43791486550061_1_alg».proof.Proof.Gen.ReferenceIdeal
import Idealize.ShloMosaic.PureOps.Ideal
import Idealize.ShloMosaic.Lib.StableHlo.Run

noncomputable section

namespace Cert.KernelIdeal.Line

open Cert.KernelIdeal Cert.KernelIdeal.Gen Idealize.ShloMosaic Idealize.ShloMosaic.TcCoe Idealize.ShloMosaic.StableHlo

/-- The product x · W1 of the first layer, [50000, 256] × [256, 128], on the launch's own buffers. -/
abbrev prod0 : HloOp τ sig (Elt Ideal) :=
  binary main_v30 main_v31 main_v32 ((fun (l : FVec Ideal S50000x256 .bf16) (r : FVec Ideal S256x128 .bf16) => Host.dotGeneral (F := Ideal) Cert.ReferenceIdeal.dot_S50000x256_S256x128_S50000x128_1_0_0_1_n_n none l r) : (⟨S50000x256, .bf16⟩ : BufTy).Contents (Elt Ideal) → (⟨S256x128, .bf16⟩ : BufTy).Contents (Elt Ideal) → (⟨S50000x128, .f32⟩ : BufTy).Contents (Elt Ideal))

/-- The product h · W2 of the second layer, [50000, 128] × [128, 16], on the launch's own buffers. -/
abbrev prod1 : HloOp τ sig (Elt Ideal) :=
  binary main_v50 main_v51 main_v52 ((fun (l : FVec Ideal S50000x128 .bf16) (r : FVec Ideal S128x16 .bf16) => Host.dotGeneral (F := Ideal) Cert.ReferenceIdeal.dot_S50000x128_S128x16_S50000x16_1_0_0_1_n_n none l r) : (⟨S50000x128, .bf16⟩ : BufTy).Contents (Elt Ideal) → (⟨S128x16, .bf16⟩ : BufTy).Contents (Elt Ideal) → (⟨S50000x16, .f32⟩ : BufTy).Contents (Elt Ideal))

/-- @main as one line of host operations: its stretches in order, each launch as its product. -/
abbrev line : List (HloOp τ sig (Elt Ideal)) :=
  hostOps0 ++ (hostOps0_1 ++ (hostOps0_2 ++ ([prod0] ++ (hostOps1 ++ (hostOps1_1 ++ (hostOps1_2 ++ ([prod1] ++ (hostOps2 ++ hostOps2_1))))))))

/-- Running two lines one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

end Cert.KernelIdeal.Line

end
-- ==== Proof.Fold.lean ====
/-
  The buffers at the end of the program are what ONE line of host operations leaves (module Line).

  A launch changes one buffer: its output array, which ends at the whole product of its two operand arrays (module
  Rows); its operand arrays are read only, and every other buffer is out of its reach. A `dot_general` on the same
  three buffers changes the same one buffer to the same contents. So at each launch's exit the buffers are what that
  operation leaves from the buffers at its entry, and the program's boundary contents, folded from the launch memory
  through the host stretches and the two launches, are the line's.
-/
import proofs.«119963_j43791486550061_1_alg».proof.Proof.Rows
import proofs.«119963_j43791486550061_1_alg».proof.Proof.Line

set_option maxRecDepth 16384

noncomputable section

namespace Cert.KernelIdeal.Fold

open Cert.KernelIdeal Cert.KernelIdeal.Gen Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-- At the first launch's exit the buffers are what the first layer's product leaves from its entry. -/
theorem exit0 (c : Dev nD) : W4 m ρ c = after [Line.prod0] (W3 m ρ c) := by
  funext b
  rw [after_cons, after_nil]
  by_cases hb : b = Proc.devRef .tc main_v32
  · subst hb
    exact ((W4_arr m ρ c 2).trans (Rows.product0 (V3 m ρ) c)).trans (binary_result main_v30 main_v31 main_v32 _ _ _ _ (W3 m ρ c)).symm
  · rw [HloOp.result_of_not_mem _ _ (by rw [binary_writes, Finset.mem_singleton]; exact hb)]
    by_cases h : ∃ w, Proc.devRef .tc (Pipeline.arrRef spec0 w) = b
    · obtain ⟨w, rfl⟩ := h
      rw [W4_arr]
      match w with
      | ⟨0, _⟩ => exact ((dat0 (V3 m ρ) c).arrAt_in 0 rfl cfg0.N).trans (A_eq0 (V3 m ρ) c 0)
      | ⟨1, _⟩ => exact ((dat0 (V3 m ρ) c).arrAt_in 1 rfl cfg0.N).trans (A_eq0 (V3 m ρ) c 1)
      | ⟨2, _⟩ => exact absurd rfl hb
    · unfold W4 Pipeline.withArrays
      exact dif_neg h

/-- At the second launch's exit the buffers are what the second layer's product leaves from its entry. -/
theorem exit1 (c : Dev nD) : W8 m ρ c = after [Line.prod1] (W7 m ρ c) := by
  funext b
  rw [after_cons, after_nil]
  by_cases hb : b = Proc.devRef .tc main_v52
  · subst hb
    exact ((W8_arr m ρ c 2).trans (Rows.product1 (V7 m ρ) c)).trans (binary_result main_v50 main_v51 main_v52 _ _ _ _ (W7 m ρ c)).symm
  · rw [HloOp.result_of_not_mem _ _ (by rw [binary_writes, Finset.mem_singleton]; exact hb)]
    by_cases h : ∃ w, Proc.devRef .tc (Pipeline.arrRef spec1 w) = b
    · obtain ⟨w, rfl⟩ := h
      rw [W8_arr]
      match w with
      | ⟨0, _⟩ => exact ((dat1 (V7 m ρ) c).arrAt_in 0 rfl cfg1.N).trans (A_eq1 (V7 m ρ) c 0)
      | ⟨1, _⟩ => exact ((dat1 (V7 m ρ) c).arrAt_in 1 rfl cfg1.N).trans (A_eq1 (V7 m ρ) c 1)
      | ⟨2, _⟩ => exact absurd rfl hb
    · unfold W8 Pipeline.withArrays
      exact dif_neg h

/-- The buffers after the last host stretch are the line's, from the launch memory. -/
theorem last_eq_line (c : Dev nD) : W10 m ρ c = after Line.line (W0 m ρ c) := by
  show after hostOps2_1 (after hostOps2 (W8 m ρ c)) = _
  rw [exit1]
  show after hostOps2_1 (after hostOps2 (after [Line.prod1] (after hostOps1_2 (after hostOps1_1 (after hostOps1 (W4 m ρ c)))))) = _
  rw [exit0]
  simp only [Line.line, Line.after_append]

end Cert.KernelIdeal.Fold

end
-- ==== Proof.KernelCasts.lean ====
/-
  The typed views of the kernel program's function-call buffers are the identity.

  A called function's operations name their buffers through typed references, and move an array in and out of such a
  buffer through a transport along "this buffer's type is that array type". For every buffer named here the two types
  are the same type, so the transport is the identity: one lemma per buffer and direction, each by computation.
-/
import proofs.«119963_j43791486550061_1_alg».proof.Proof.Gen.KernelIdeal
import Idealize.ShloMosaic.Lib.StableHlo

noncomputable section

namespace Cert.KernelIdeal.Casts

open Cert.KernelIdeal Idealize.ShloMosaic Idealize.ShloMosaic.TcCoe Idealize.ShloMosaic.StableHlo

variable {F : FTy → Type} [FloatOps F]

theorem toBuf_main_cst_2 (h1 : (main_cst_2 : Ref sig .tc).ty = ⟨S_, .f32⟩) (h2 : (main_cst_2 : Ref sig .tc).space ≠ .host) (h3 : (main_cst_2 : Ref sig .tc).isScoped = false) (v : (⟨S_, .f32⟩ : BufTy).Contents (Elt F)) :
    (TRef.of (T := ⟨S_, .f32⟩) main_cst_2 h1 h2 h3).toBuf (Val := Elt F) v = v := rfl
theorem ofBuf_main_cst_2 (h1 : (main_cst_2 : Ref sig .tc).ty = ⟨S_, .f32⟩) (h2 : (main_cst_2 : Ref sig .tc).space ≠ .host) (h3 : (main_cst_2 : Ref sig .tc).isScoped = false) (v : (⟨S_, .f32⟩ : BufTy).Contents (Elt F)) :
    (TRef.of (T := ⟨S_, .f32⟩) main_cst_2 h1 h2 h3).ofBuf (Val := Elt F) v = v := rfl

theorem toBuf_main_call0_v0 (h1 : (main_call0_v0 : Ref sig .tc).ty = ⟨S_, .f32⟩) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).toBuf (Val := Elt F) v = v := rfl
theorem ofBuf_main_call0_v0 (h1 : (main_call0_v0 : Ref sig .tc).ty = ⟨S_, .f32⟩) (h2 : (main_call0_v0 : Ref sig .tc).space ≠ .host) (h3 : (main_call0_v0 : Ref sig .tc).isScoped = false) (v : (⟨S_, .f32⟩ : BufTy).Contents (Elt F)) :
    (TRef.of (T := ⟨S_, .f32⟩) main_call0_v0 h1 h2 h3).ofBuf (Val := Elt F) v = v := rfl

theorem toBuf_main_call0_v1 (h1 : (main_call0_v1 : Ref sig .tc).ty = ⟨S50000, .f32⟩) (h2 : (main_call0_v1 : Ref sig .tc).space ≠ .host) (h3 : (main_call0_v1 : Ref sig .tc).isScoped = false) (v : (⟨S50000, .f32⟩ : BufTy).Contents (Elt F)) :
    (TRef.of (T := ⟨S50000, .f32⟩) main_call0_v1 h1 h2 h3).toBuf (Val := Elt F) v = v := rfl
theorem ofBuf_main_call0_v1 (h1 : (main_call0_v1 : Ref sig .tc).ty = ⟨S50000, .f32⟩) (h2 : (main_call0_v1 : Ref sig .tc).space ≠ .host) (h3 : (main_call0_v1 : Ref sig .tc).isScoped = false) (v : (⟨S50000, .f32⟩ : BufTy).Contents (Elt F)) :
    (TRef.of (T := ⟨S50000, .f32⟩) main_call0_v1 h1 h2 h3).ofBuf (Val := Elt F) v = v := rfl

theorem toBuf_main_v12 (h1 : (main_v12 : Ref sig .tc).ty = ⟨S50000, .i1⟩) (h2 : (main_v12 : Ref sig .tc).space ≠ .host) (h3 : (main_v12 : Ref sig .tc).isScoped = false) (v : (⟨S50000, .i1⟩ : BufTy).Contents (Elt F)) :
    (TRef.of (T := ⟨S50000, .i1⟩) main_v12 h1 h2 h3).toBuf (Val := Elt F) v = v := rfl
theorem ofBuf_main_v12 (h1 : (main_v12 : Ref sig .tc).ty = ⟨S50000, .i1⟩) (h2 : (main_v12 : Ref sig .tc).space ≠ .host) (h3 : (main_v12 : Ref sig .tc).isScoped = false) (v : (⟨S50000, .i1⟩ : BufTy).Contents (Elt F)) :
    (TRef.of (T := ⟨S50000, .i1⟩) main_v12 h1 h2 h3).ofBuf (Val := Elt F) v = v := rfl

theorem toBuf_main_v13 (h1 : (main_v13 : Ref sig .tc).ty = ⟨S50000, .f32⟩) (h2 : (main_v13 : Ref sig .tc).space ≠ .host) (h3 : (main_v13 : Ref sig .tc).isScoped = false) (v : (⟨S50000, .f32⟩ : BufTy).Contents (Elt F)) :
    (TRef.of (T := ⟨S50000, .f32⟩) main_v13 h1 h2 h3).toBuf (Val := Elt F) v = v := rfl
theorem ofBuf_main_v13 (h1 : (main_v13 : Ref sig .tc).ty = ⟨S50000, .f32⟩) (h2 : (main_v13 : Ref sig .tc).space ≠ .host) (h3 : (main_v13 : Ref sig .tc).isScoped = false) (v : (⟨S50000, .f32⟩ : BufTy).Contents (Elt F)) :
    (TRef.of (T := ⟨S50000, .f32⟩) main_v13 h1 h2 h3).ofBuf (Val := Elt F) v = v := rfl

theorem toBuf_main_v14 (h1 : (main_v14 : Ref sig .tc).ty = ⟨S50000, .f32⟩) (h2 : (main_v14 : Ref sig .tc).space ≠ .host) (h3 : (main_v14 : Ref sig .tc).isScoped = false) (v : (⟨S50000, .f32⟩ : BufTy).Contents (Elt F)) :
    (TRef.of (T := ⟨S50000, .f32⟩) main_v14 h1 h2 h3).toBuf (Val := Elt F) v = v := rfl
theorem ofBuf_main_v14 (h1 : (main_v14 : Ref sig .tc).ty = ⟨S50000, .f32⟩) (h2 : (main_v14 : Ref sig .tc).space ≠ .host) (h3 : (main_v14 : Ref sig .tc).isScoped = false) (v : (⟨S50000, .f32⟩ : BufTy).Contents (Elt F)) :
    (TRef.of (T := ⟨S50000, .f32⟩) main_v14 h1 h2 h3).ofBuf (Val := Elt F) v = v := rfl

theorem toBuf_main_call1_cst (h1 : (main_call1_cst : Ref sig .tc).ty = ⟨S_, .f32⟩) (h2 : (main_call1_cst : Ref sig .tc).space ≠ .host) (h3 : (main_call1_cst : Ref sig .tc).isScoped = false) (v : (⟨S_, .f32⟩ : BufTy).Contents (Elt F)) :
    (TRef.of (T := ⟨S_, .f32⟩) main_call1_cst h1 h2 h3).toBuf (Val := Elt F) v = v := rfl
theorem ofBuf_main_call1_cst (h1 : (main_call1_cst : Ref sig .tc).ty = ⟨S_, .f32⟩) (h2 : (main_call1_cst : Ref sig .tc).space ≠ .host) (h3 : (main_call1_cst : Ref sig .tc).isScoped = false) (v : (⟨S_, .f32⟩ : BufTy).Contents (Elt F)) :
    (TRef.of (T := ⟨S_, .f32⟩) main_call1_cst h1 h2 h3).ofBuf (Val := Elt F) v = v := rfl

theorem toBuf_main_call1_v0 (h1 : (main_call1_v0 : Ref sig .tc).ty = ⟨S50000x128, .f32⟩) (h2 : (main_call1_v0 : Ref sig .tc).space ≠ .host) (h3 : (main_call1_v0 : Ref sig .tc).isScoped = false) (v : (⟨S50000x128, .f32⟩ : BufTy).Contents (Elt F)) :
    (TRef.of (T := ⟨S50000x128, .f32⟩) main_call1_v0 h1 h2 h3).toBuf (Val := Elt F) v = v := rfl
theorem ofBuf_main_call1_v0 (h1 : (main_call1_v0 : Ref sig .tc).ty = ⟨S50000x128, .f32⟩) (h2 : (main_call1_v0 : Ref sig .tc).space ≠ .host) (h3 : (main_call1_v0 : Ref sig .tc).isScoped = false) (v : (⟨S50000x128, .f32⟩ : BufTy).Contents (Elt F)) :
    (TRef.of (T := ⟨S50000x128, .f32⟩) main_call1_v0 h1 h2 h3).ofBuf (Val := Elt F) v = v := rfl

theorem toBuf_main_v48 (h1 : (main_v48 : Ref sig .tc).ty = ⟨S50000x128, .f32⟩) (h2 : (main_v48 : Ref sig .tc).space ≠ .host) (h3 : (main_v48 : Ref sig .tc).isScoped = false) (v : (⟨S50000x128, .f32⟩ : BufTy).Contents (Elt F)) :
    (TRef.of (T := ⟨S50000x128, .f32⟩) main_v48 h1 h2 h3).toBuf (Val := Elt F) v = v := rfl
theorem ofBuf_main_v48 (h1 : (main_v48 : Ref sig .tc).ty = ⟨S50000x128, .f32⟩) (h2 : (main_v48 : Ref sig .tc).space ≠ .host) (h3 : (main_v48 : Ref sig .tc).isScoped = false) (v : (⟨S50000x128, .f32⟩ : BufTy).Contents (Elt F)) :
    (TRef.of (T := ⟨S50000x128, .f32⟩) main_v48 h1 h2 h3).ofBuf (Val := Elt F) v = v := rfl

theorem toBuf_main_v49 (h1 : (main_v49 : Ref sig .tc).ty = ⟨S50000x128, .f32⟩) (h2 : (main_v49 : Ref sig .tc).space ≠ .host) (h3 : (main_v49 : Ref sig .tc).isScoped = false) (v : (⟨S50000x128, .f32⟩ : BufTy).Contents (Elt F)) :
    (TRef.of (T := ⟨S50000x128, .f32⟩) main_v49 h1 h2 h3).toBuf (Val := Elt F) v = v := rfl
theorem ofBuf_main_v49 (h1 : (main_v49 : Ref sig .tc).ty = ⟨S50000x128, .f32⟩) (h2 : (main_v49 : Ref sig .tc).space ≠ .host) (h3 : (main_v49 : Ref sig .tc).isScoped = false) (v : (⟨S50000x128, .f32⟩ : BufTy).Contents (Elt F)) :
    (TRef.of (T := ⟨S50000x128, .f32⟩) main_v49 h1 h2 h3).ofBuf (Val := Elt F) v = v := rfl

theorem toBuf_main_call2_cst (h1 : (main_call2_cst : Ref sig .tc).ty = ⟨S_, .f32⟩) (h2 : (main_call2_cst : Ref sig .tc).space ≠ .host) (h3 : (main_call2_cst : Ref sig .tc).isScoped = false) (v : (⟨S_, .f32⟩ : BufTy).Contents (Elt F)) :
    (TRef.of (T := ⟨S_, .f32⟩) main_call2_cst h1 h2 h3).toBuf (Val := Elt F) v = v := rfl
theorem ofBuf_main_call2_cst (h1 : (main_call2_cst : Ref sig .tc).ty = ⟨S_, .f32⟩) (h2 : (main_call2_cst : Ref sig .tc).space ≠ .host) (h3 : (main_call2_cst : Ref sig .tc).isScoped = false) (v : (⟨S_, .f32⟩ : BufTy).Contents (Elt F)) :
    (TRef.of (T := ⟨S_, .f32⟩) main_call2_cst h1 h2 h3).ofBuf (Val := Elt F) v = v := rfl

theorem toBuf_main_v68 (h1 : (main_v68 : Ref sig .tc).ty = ⟨S50000x16, .f32⟩) (h2 : (main_v68 : Ref sig .tc).space ≠ .host) (h3 : (main_v68 : Ref sig .tc).isScoped = false) (v : (⟨S50000x16, .f32⟩ : BufTy).Contents (Elt F)) :
    (TRef.of (T := ⟨S50000x16, .f32⟩) main_v68 h1 h2 h3).toBuf (Val := Elt F) v = v := rfl
theorem ofBuf_main_v68 (h1 : (main_v68 : Ref sig .tc).ty = ⟨S50000x16, .f32⟩) (h2 : (main_v68 : Ref sig .tc).space ≠ .host) (h3 : (main_v68 : Ref sig .tc).isScoped = false) (v : (⟨S50000x16, .f32⟩ : BufTy).Contents (Elt F)) :
    (TRef.of (T := ⟨S50000x16, .f32⟩) main_v68 h1 h2 h3).ofBuf (Val := Elt F) v = v := rfl

theorem toBuf_main_call2_v0 (h1 : (main_call2_v0 : Ref sig .tc).ty = ⟨S50000, .f32⟩) (h2 : (main_call2_v0 : Ref sig .tc).space ≠ .host) (h3 : (main_call2_v0 : Ref sig .tc).isScoped = false) (v : (⟨S50000, .f32⟩ : BufTy).Contents (Elt F)) :
    (TRef.of (T := ⟨S50000, .f32⟩) main_call2_v0 h1 h2 h3).toBuf (Val := Elt F) v = v := rfl
theorem ofBuf_main_call2_v0 (h1 : (main_call2_v0 : Ref sig .tc).ty = ⟨S50000, .f32⟩) (h2 : (main_call2_v0 : Ref sig .tc).space ≠ .host) (h3 : (main_call2_v0 : Ref sig .tc).isScoped = false) (v : (⟨S50000, .f32⟩ : BufTy).Contents (Elt F)) :
    (TRef.of (T := ⟨S50000, .f32⟩) main_call2_v0 h1 h2 h3).ofBuf (Val := Elt F) v = v := rfl

theorem toBuf_main_call2_cst_0 (h1 : (main_call2_cst_0 : Ref sig .tc).ty = ⟨S_, .f32⟩) (h2 : (main_call2_cst_0 : Ref sig .tc).space ≠ .host) (h3 : (main_call2_cst_0 : Ref sig .tc).isScoped = false) (v : (⟨S_, .f32⟩ : BufTy).Contents (Elt F)) :
    (TRef.of (T := ⟨S_, .f32⟩) main_call2_cst_0 h1 h2 h3).toBuf (Val := Elt F) v = v := rfl
theorem ofBuf_main_call2_cst_0 (h1 : (main_call2_cst_0 : Ref sig .tc).ty = ⟨S_, .f32⟩) (h2 : (main_call2_cst_0 : Ref sig .tc).space ≠ .host) (h3 : (main_call2_cst_0 : Ref sig .tc).isScoped = false) (v : (⟨S_, .f32⟩ : BufTy).Contents (Elt F)) :
    (TRef.of (T := ⟨S_, .f32⟩) main_call2_cst_0 h1 h2 h3).ofBuf (Val := Elt F) v = v := rfl

theorem toBuf_main_call2_v1 (h1 : (main_call2_v1 : Ref sig .tc).ty = ⟨S50000, .f32⟩) (h2 : (main_call2_v1 : Ref sig .tc).space ≠ .host) (h3 : (main_call2_v1 : Ref sig .tc).isScoped = false) (v : (⟨S50000, .f32⟩ : BufTy).Contents (Elt F)) :
    (TRef.of (T := ⟨S50000, .f32⟩) main_call2_v1 h1 h2 h3).toBuf (Val := Elt F) v = v := rfl
theorem ofBuf_main_call2_v1 (h1 : (main_call2_v1 : Ref sig .tc).ty = ⟨S50000, .f32⟩) (h2 : (main_call2_v1 : Ref sig .tc).space ≠ .host) (h3 : (main_call2_v1 : Ref sig .tc).isScoped = false) (v : (⟨S50000, .f32⟩ : BufTy).Contents (Elt F)) :
    (TRef.of (T := ⟨S50000, .f32⟩) main_call2_v1 h1 h2 h3).ofBuf (Val := Elt F) v = v := rfl

theorem toBuf_main_call2_v2 (h1 : (main_call2_v2 : Ref sig .tc).ty = ⟨S50000, .f32⟩) (h2 : (main_call2_v2 : Ref sig .tc).space ≠ .host) (h3 : (main_call2_v2 : Ref sig .tc).isScoped = false) (v : (⟨S50000, .f32⟩ : BufTy).Contents (Elt F)) :
    (TRef.of (T := ⟨S50000, .f32⟩) main_call2_v2 h1 h2 h3).toBuf (Val := Elt F) v = v := rfl
theorem ofBuf_main_call2_v2 (h1 : (main_call2_v2 : Ref sig .tc).ty = ⟨S50000, .f32⟩) (h2 : (main_call2_v2 : Ref sig .tc).space ≠ .host) (h3 : (main_call2_v2 : Ref sig .tc).isScoped = false) (v : (⟨S50000, .f32⟩ : BufTy).Contents (Elt F)) :
    (TRef.of (T := ⟨S50000, .f32⟩) main_call2_v2 h1 h2 h3).ofBuf (Val := Elt F) v = v := rfl

theorem toBuf_main_call2_v3 (h1 : (main_call2_v3 : Ref sig .tc).ty = ⟨S50000x1, .f32⟩) (h2 : (main_call2_v3 : Ref sig .tc).space ≠ .host) (h3 : (main_call2_v3 : Ref sig .tc).isScoped = false) (v : (⟨S50000x1, .f32⟩ : BufTy).Contents (Elt F)) :
    (TRef.of (T := ⟨S50000x1, .f32⟩) main_call2_v3 h1 h2 h3).toBuf (Val := Elt F) v = v := rfl
theorem ofBuf_main_call2_v3 (h1 : (main_call2_v3 : Ref sig .tc).ty = ⟨S50000x1, .f32⟩) (h2 : (main_call2_v3 : Ref sig .tc).space ≠ .host) (h3 : (main_call2_v3 : Ref sig .tc).isScoped = false) (v : (⟨S50000x1, .f32⟩ : BufTy).Contents (Elt F)) :
    (TRef.of (T := ⟨S50000x1, .f32⟩) main_call2_v3 h1 h2 h3).ofBuf (Val := Elt F) v = v := rfl

theorem toBuf_main_call2_v4 (h1 : (main_call2_v4 : Ref sig .tc).ty = ⟨S50000x16, .f32⟩) (h2 : (main_call2_v4 : Ref sig .tc).space ≠ .host) (h3 : (main_call2_v4 : Ref sig .tc).isScoped = false) (v : (⟨S50000x16, .f32⟩ : BufTy).Contents (Elt F)) :
    (TRef.of (T := ⟨S50000x16, .f32⟩) main_call2_v4 h1 h2 h3).toBuf (Val := Elt F) v = v := rfl
theorem ofBuf_main_call2_v4 (h1 : (main_call2_v4 : Ref sig .tc).ty = ⟨S50000x16, .f32⟩) (h2 : (main_call2_v4 : Ref sig .tc).space ≠ .host) (h3 : (main_call2_v4 : Ref sig .tc).isScoped = false) (v : (⟨S50000x16, .f32⟩ : BufTy).Contents (Elt F)) :
    (TRef.of (T := ⟨S50000x16, .f32⟩) main_call2_v4 h1 h2 h3).ofBuf (Val := Elt F) v = v := rfl

theorem toBuf_main_call2_v5 (h1 : (main_call2_v5 : Ref sig .tc).ty = ⟨S50000x16, .f32⟩) (h2 : (main_call2_v5 : Ref sig .tc).space ≠ .host) (h3 : (main_call2_v5 : Ref sig .tc).isScoped = false) (v : (⟨S50000x16, .f32⟩ : BufTy).Contents (Elt F)) :
    (TRef.of (T := ⟨S50000x16, .f32⟩) main_call2_v5 h1 h2 h3).toBuf (Val := Elt F) v = v := rfl
theorem ofBuf_main_call2_v5 (h1 : (main_call2_v5 : Ref sig .tc).ty = ⟨S50000x16, .f32⟩) (h2 : (main_call2_v5 : Ref sig .tc).space ≠ .host) (h3 : (main_call2_v5 : Ref sig .tc).isScoped = false) (v : (⟨S50000x16, .f32⟩ : BufTy).Contents (Elt F)) :
    (TRef.of (T := ⟨S50000x16, .f32⟩) main_call2_v5 h1 h2 h3).ofBuf (Val := Elt F) v = v := rfl

theorem toBuf_main_call2_v6 (h1 : (main_call2_v6 : Ref sig .tc).ty = ⟨S50000x16, .f32⟩) (h2 : (main_call2_v6 : Ref sig .tc).space ≠ .host) (h3 : (main_call2_v6 : Ref sig .tc).isScoped = false) (v : (⟨S50000x16, .f32⟩ : BufTy).Contents (Elt F)) :
    (TRef.of (T := ⟨S50000x16, .f32⟩) main_call2_v6 h1 h2 h3).toBuf (Val := Elt F) v = v := rfl
theorem ofBuf_main_call2_v6 (h1 : (main_call2_v6 : Ref sig .tc).ty = ⟨S50000x16, .f32⟩) (h2 : (main_call2_v6 : Ref sig .tc).space ≠ .host) (h3 : (main_call2_v6 : Ref sig .tc).isScoped = false) (v : (⟨S50000x16, .f32⟩ : BufTy).Contents (Elt F)) :
    (TRef.of (T := ⟨S50000x16, .f32⟩) main_call2_v6 h1 h2 h3).ofBuf (Val := Elt F) v = v := rfl

theorem toBuf_main_call2_cst_1 (h1 : (main_call2_cst_1 : Ref sig .tc).ty = ⟨S_, .f32⟩) (h2 : (main_call2_cst_1 : Ref sig .tc).space ≠ .host) (h3 : (main_call2_cst_1 : Ref sig .tc).isScoped = false) (v : (⟨S_, .f32⟩ : BufTy).Contents (Elt F)) :
    (TRef.of (T := ⟨S_, .f32⟩) main_call2_cst_1 h1 h2 h3).toBuf (Val := Elt F) v = v := rfl
theorem ofBuf_main_call2_cst_1 (h1 : (main_call2_cst_1 : Ref sig .tc).ty = ⟨S_, .f32⟩) (h2 : (main_call2_cst_1 : Ref sig .tc).space ≠ .host) (h3 : (main_call2_cst_1 : Ref sig .tc).isScoped = false) (v : (⟨S_, .f32⟩ : BufTy).Contents (Elt F)) :
    (TRef.of (T := ⟨S_, .f32⟩) main_call2_cst_1 h1 h2 h3).ofBuf (Val := Elt F) v = v := rfl

theorem toBuf_main_call2_v7 (h1 : (main_call2_v7 : Ref sig .tc).ty = ⟨S50000, .f32⟩) (h2 : (main_call2_v7 : Ref sig .tc).space ≠ .host) (h3 : (main_call2_v7 : Ref sig .tc).isScoped = false) (v : (⟨S50000, .f32⟩ : BufTy).Contents (Elt F)) :
    (TRef.of (T := ⟨S50000, .f32⟩) main_call2_v7 h1 h2 h3).toBuf (Val := Elt F) v = v := rfl
theorem ofBuf_main_call2_v7 (h1 : (main_call2_v7 : Ref sig .tc).ty = ⟨S50000, .f32⟩) (h2 : (main_call2_v7 : Ref sig .tc).space ≠ .host) (h3 : (main_call2_v7 : Ref sig .tc).isScoped = false) (v : (⟨S50000, .f32⟩ : BufTy).Contents (Elt F)) :
    (TRef.of (T := ⟨S50000, .f32⟩) main_call2_v7 h1 h2 h3).ofBuf (Val := Elt F) v = v := rfl

theorem toBuf_main_call2_v8 (h1 : (main_call2_v8 : Ref sig .tc).ty = ⟨S50000x1, .f32⟩) (h2 : (main_call2_v8 : Ref sig .tc).space ≠ .host) (h3 : (main_call2_v8 : Ref sig .tc).isScoped = false) (v : (⟨S50000x1, .f32⟩ : BufTy).Contents (Elt F)) :
    (TRef.of (T := ⟨S50000x1, .f32⟩) main_call2_v8 h1 h2 h3).toBuf (Val := Elt F) v = v := rfl
theorem ofBuf_main_call2_v8 (h1 : (main_call2_v8 : Ref sig .tc).ty = ⟨S50000x1, .f32⟩) (h2 : (main_call2_v8 : Ref sig .tc).space ≠ .host) (h3 : (main_call2_v8 : Ref sig .tc).isScoped = false) (v : (⟨S50000x1, .f32⟩ : BufTy).Contents (Elt F)) :
    (TRef.of (T := ⟨S50000x1, .f32⟩) main_call2_v8 h1 h2 h3).ofBuf (Val := Elt F) v = v := rfl

theorem toBuf_main_call2_v9 (h1 : (main_call2_v9 : Ref sig .tc).ty = ⟨S50000x1, .f32⟩) (h2 : (main_call2_v9 : Ref sig .tc).space ≠ .host) (h3 : (main_call2_v9 : Ref sig .tc).isScoped = false) (v : (⟨S50000x1, .f32⟩ : BufTy).Contents (Elt F)) :
    (TRef.of (T := ⟨S50000x1, .f32⟩) main_call2_v9 h1 h2 h3).toBuf (Val := Elt F) v = v := rfl
theorem ofBuf_main_call2_v9 (h1 : (main_call2_v9 : Ref sig .tc).ty = ⟨S50000x1, .f32⟩) (h2 : (main_call2_v9 : Ref sig .tc).space ≠ .host) (h3 : (main_call2_v9 : Ref sig .tc).isScoped = false) (v : (⟨S50000x1, .f32⟩ : BufTy).Contents (Elt F)) :
    (TRef.of (T := ⟨S50000x1, .f32⟩) main_call2_v9 h1 h2 h3).ofBuf (Val := Elt F) v = v := rfl

theorem toBuf_main_call2_v10 (h1 : (main_call2_v10 : Ref sig .tc).ty = ⟨S50000x16, .f32⟩) (h2 : (main_call2_v10 : Ref sig .tc).space ≠ .host) (h3 : (main_call2_v10 : Ref sig .tc).isScoped = false) (v : (⟨S50000x16, .f32⟩ : BufTy).Contents (Elt F)) :
    (TRef.of (T := ⟨S50000x16, .f32⟩) main_call2_v10 h1 h2 h3).toBuf (Val := Elt F) v = v := rfl
theorem ofBuf_main_call2_v10 (h1 : (main_call2_v10 : Ref sig .tc).ty = ⟨S50000x16, .f32⟩) (h2 : (main_call2_v10 : Ref sig .tc).space ≠ .host) (h3 : (main_call2_v10 : Ref sig .tc).isScoped = false) (v : (⟨S50000x16, .f32⟩ : BufTy).Contents (Elt F)) :
    (TRef.of (T := ⟨S50000x16, .f32⟩) main_call2_v10 h1 h2 h3).ofBuf (Val := Elt F) v = v := rfl

theorem toBuf_main_v69 (h1 : (main_v69 : Ref sig .tc).ty = ⟨S50000x16, .f32⟩) (h2 : (main_v69 : Ref sig .tc).space ≠ .host) (h3 : (main_v69 : Ref sig .tc).isScoped = false) (v : (⟨S50000x16, .f32⟩ : BufTy).Contents (Elt F)) :
    (TRef.of (T := ⟨S50000x16, .f32⟩) main_v69 h1 h2 h3).toBuf (Val := Elt F) v = v := rfl
theorem ofBuf_main_v69 (h1 : (main_v69 : Ref sig .tc).ty = ⟨S50000x16, .f32⟩) (h2 : (main_v69 : Ref sig .tc).space ≠ .host) (h3 : (main_v69 : Ref sig .tc).isScoped = false) (v : (⟨S50000x16, .f32⟩ : BufTy).Contents (Elt F)) :
    (TRef.of (T := ⟨S50000x16, .f32⟩) main_v69 h1 h2 h3).ofBuf (Val := Elt F) v = v := rfl

end Cert.KernelIdeal.Casts

end
-- ==== Proof.Cuts.lean ====
/-
  The two programs cut at the same three places.

  Both programs are one line of host operations (module Line writes each kernel launch as its matrix product). Each line
  is cut after the edge weights are ready, and again after the maximum with zero that ends the first layer: the part that
  prepares the edge lists and the symmetric weights, the first layer, and the second layer with its row-wise log-softmax.
  The kernel program has two more operations between the layers, the rounding of the second product's two factors to a
  shorter float format; they are a part of their own. Running a line is running its parts one after the other.
-/
import proofs.«119963_j43791486550061_1_alg».proof.Proof.Line
import proofs.«119963_j43791486550061_1_alg».proof.Proof.RefOps
import proofs.«119963_j43791486550061_1_alg».proof.Proof.LibJoin
import proofs.«119963_j43791486550061_1_alg».proof.Proof.KernelCasts
import proofs.«119963_j43791486550061_1_alg».proof.Proof.RefCasts
import Idealize.ShloMosaic.PureOps.Ideal
import Idealize.ShloMosaic.Lib.StableHlo.Run

noncomputable section

namespace Cert.ReferenceIdeal.Cuts

open Cert.ReferenceIdeal Cert.ReferenceIdeal.RunP Idealize.ShloMosaic Idealize.ShloMosaic.TcCoe Idealize.ShloMosaic.StableHlo

/-- The reference's operations up to the edge weights: the first 40. -/
def partA : List (HloOp τ sig (Elt Ideal)) := (ops (F := Ideal)).take 40
/-- The reference's first layer: the product, the gather, scale and scatter-add, the bias and the maximum with zero: 23 operations. -/
def partB : List (HloOp τ sig (Elt Ideal)) := ((ops (F := Ideal)).drop 40).take 23
/-- The reference's second layer and the log-softmax: the remaining 35 operations. -/
def partC : List (HloOp τ sig (Elt Ideal)) := ((ops (F := Ideal)).drop 40).drop 23

/-- The reference's line is its three parts in order. -/
theorem ops_split : (ops (F := Ideal)) = partA ++ (partB ++ partC) := by
  unfold partA partB partC
  rw [List.take_append_drop, List.take_append_drop]

end Cert.ReferenceIdeal.Cuts

namespace Cert.KernelIdeal.Cuts

open Cert.KernelIdeal Cert.KernelIdeal.Gen Idealize.ShloMosaic Idealize.ShloMosaic.TcCoe Idealize.ShloMosaic.StableHlo

/-- The kernel program's operations up to the edge weights, with the rounding of the first product's two factors. -/
def partA : List (HloOp τ sig (Elt Ideal)) := hostOps0 ++ (hostOps0_1 ++ hostOps0_2)
/-- The first layer: the product, the gather, scale and scatter-add, the bias and the maximum with zero. -/
def partB : List (HloOp τ sig (Elt Ideal)) := [Line.prod0] ++ (hostOps1 ++ hostOps1_1)
/-- The rounding of the second product's two factors to the shorter float format: two operations the reference does not have. -/
def partT : List (HloOp τ sig (Elt Ideal)) := hostOps1_2
/-- The second layer and the log-softmax. -/
def partC : List (HloOp τ sig (Elt Ideal)) := [Line.prod1] ++ (hostOps2 ++ hostOps2_1)

/-- The kernel program's line is its parts in order. -/
theorem line_split : Line.line = partA ++ (partB ++ (partT ++ partC)) := by
  unfold partA partB partT partC
  simp only [Line.line, List.append_assoc]

/-- Running two lines one after the other is running their concatenation, for any program. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.KernelIdeal.Cuts

open Idealize.ShloMosaic Idealize.ShloMosaic.StableHlo Cert.LibJoin in
/-- One pass that evaluates a line of operations at a buffer, one operation at a time, sharing every intermediate result;
    a typed view of a called function's buffer is the identity and is dropped on the way. -/
macro "eval_line" : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', join2_def,
    Cert.KernelIdeal.Casts.toBuf_main_cst_2, Cert.KernelIdeal.Casts.ofBuf_main_cst_2, Cert.KernelIdeal.Casts.toBuf_main_call0_v0, Cert.KernelIdeal.Casts.ofBuf_main_call0_v0, Cert.KernelIdeal.Casts.toBuf_main_call0_v1, Cert.KernelIdeal.Casts.ofBuf_main_call0_v1, Cert.KernelIdeal.Casts.toBuf_main_v12, Cert.KernelIdeal.Casts.ofBuf_main_v12, Cert.KernelIdeal.Casts.toBuf_main_v13, Cert.KernelIdeal.Casts.ofBuf_main_v13, Cert.KernelIdeal.Casts.toBuf_main_v14, Cert.KernelIdeal.Casts.ofBuf_main_v14, Cert.KernelIdeal.Casts.toBuf_main_call1_cst, Cert.KernelIdeal.Casts.ofBuf_main_call1_cst, Cert.KernelIdeal.Casts.toBuf_main_call1_v0, Cert.KernelIdeal.Casts.ofBuf_main_call1_v0, Cert.KernelIdeal.Casts.toBuf_main_v48, Cert.KernelIdeal.Casts.ofBuf_main_v48, Cert.KernelIdeal.Casts.toBuf_main_v49, Cert.KernelIdeal.Casts.ofBuf_main_v49, Cert.KernelIdeal.Casts.toBuf_main_call2_cst, Cert.KernelIdeal.Casts.ofBuf_main_call2_cst, Cert.KernelIdeal.Casts.toBuf_main_v68, Cert.KernelIdeal.Casts.ofBuf_main_v68, Cert.KernelIdeal.Casts.toBuf_main_call2_v0, Cert.KernelIdeal.Casts.ofBuf_main_call2_v0, Cert.KernelIdeal.Casts.toBuf_main_call2_cst_0, Cert.KernelIdeal.Casts.ofBuf_main_call2_cst_0, Cert.KernelIdeal.Casts.toBuf_main_call2_v1, Cert.KernelIdeal.Casts.ofBuf_main_call2_v1, Cert.KernelIdeal.Casts.toBuf_main_call2_v2, Cert.KernelIdeal.Casts.ofBuf_main_call2_v2, Cert.KernelIdeal.Casts.toBuf_main_call2_v3, Cert.KernelIdeal.Casts.ofBuf_main_call2_v3, Cert.KernelIdeal.Casts.toBuf_main_call2_v4, Cert.KernelIdeal.Casts.ofBuf_main_call2_v4, Cert.KernelIdeal.Casts.toBuf_main_call2_v5, Cert.KernelIdeal.Casts.ofBuf_main_call2_v5, Cert.KernelIdeal.Casts.toBuf_main_call2_v6, Cert.KernelIdeal.Casts.ofBuf_main_call2_v6, Cert.KernelIdeal.Casts.toBuf_main_call2_cst_1, Cert.KernelIdeal.Casts.ofBuf_main_call2_cst_1, Cert.KernelIdeal.Casts.toBuf_main_call2_v7, Cert.KernelIdeal.Casts.ofBuf_main_call2_v7, Cert.KernelIdeal.Casts.toBuf_main_call2_v8, Cert.KernelIdeal.Casts.ofBuf_main_call2_v8, Cert.KernelIdeal.Casts.toBuf_main_call2_v9, Cert.KernelIdeal.Casts.ofBuf_main_call2_v9, Cert.KernelIdeal.Casts.toBuf_main_call2_v10, Cert.KernelIdeal.Casts.ofBuf_main_call2_v10, Cert.KernelIdeal.Casts.toBuf_main_v69, Cert.KernelIdeal.Casts.ofBuf_main_v69,
    Cert.ReferenceIdeal.Casts.toBuf_main_cst_2, Cert.ReferenceIdeal.Casts.ofBuf_main_cst_2, Cert.ReferenceIdeal.Casts.toBuf_main_call0_v0, Cert.ReferenceIdeal.Casts.ofBuf_main_call0_v0, Cert.ReferenceIdeal.Casts.toBuf_main_call0_v1, Cert.ReferenceIdeal.Casts.ofBuf_main_call0_v1, Cert.ReferenceIdeal.Casts.toBuf_main_v12, Cert.ReferenceIdeal.Casts.ofBuf_main_v12, Cert.ReferenceIdeal.Casts.toBuf_main_v13, Cert.ReferenceIdeal.Casts.ofBuf_main_v13, Cert.ReferenceIdeal.Casts.toBuf_main_v14, Cert.ReferenceIdeal.Casts.ofBuf_main_v14, Cert.ReferenceIdeal.Casts.toBuf_main_call1_cst, Cert.ReferenceIdeal.Casts.ofBuf_main_call1_cst, Cert.ReferenceIdeal.Casts.toBuf_main_call1_v0, Cert.ReferenceIdeal.Casts.ofBuf_main_call1_v0, Cert.ReferenceIdeal.Casts.toBuf_main_v46, Cert.ReferenceIdeal.Casts.ofBuf_main_v46, Cert.ReferenceIdeal.Casts.toBuf_main_v47, Cert.ReferenceIdeal.Casts.ofBuf_main_v47, Cert.ReferenceIdeal.Casts.toBuf_main_call2_cst, Cert.ReferenceIdeal.Casts.ofBuf_main_call2_cst, Cert.ReferenceIdeal.Casts.toBuf_main_v64, Cert.ReferenceIdeal.Casts.ofBuf_main_v64, Cert.ReferenceIdeal.Casts.toBuf_main_call2_v0, Cert.ReferenceIdeal.Casts.ofBuf_main_call2_v0, Cert.ReferenceIdeal.Casts.toBuf_main_call2_cst_0, Cert.ReferenceIdeal.Casts.ofBuf_main_call2_cst_0, Cert.ReferenceIdeal.Casts.toBuf_main_call2_v1, Cert.ReferenceIdeal.Casts.ofBuf_main_call2_v1, Cert.ReferenceIdeal.Casts.toBuf_main_call2_v2, Cert.ReferenceIdeal.Casts.ofBuf_main_call2_v2, Cert.ReferenceIdeal.Casts.toBuf_main_call2_v3, Cert.ReferenceIdeal.Casts.ofBuf_main_call2_v3, Cert.ReferenceIdeal.Casts.toBuf_main_call2_v4, Cert.ReferenceIdeal.Casts.ofBuf_main_call2_v4, Cert.ReferenceIdeal.Casts.toBuf_main_call2_v5, Cert.ReferenceIdeal.Casts.ofBuf_main_call2_v5, Cert.ReferenceIdeal.Casts.toBuf_main_call2_v6, Cert.ReferenceIdeal.Casts.ofBuf_main_call2_v6, Cert.ReferenceIdeal.Casts.toBuf_main_call2_cst_1, Cert.ReferenceIdeal.Casts.ofBuf_main_call2_cst_1, Cert.ReferenceIdeal.Casts.toBuf_main_call2_v7, Cert.ReferenceIdeal.Casts.ofBuf_main_call2_v7, Cert.ReferenceIdeal.Casts.toBuf_main_call2_v8, Cert.ReferenceIdeal.Casts.ofBuf_main_call2_v8, Cert.ReferenceIdeal.Casts.toBuf_main_call2_v9, Cert.ReferenceIdeal.Casts.ofBuf_main_call2_v9, Cert.ReferenceIdeal.Casts.toBuf_main_call2_v10, Cert.ReferenceIdeal.Casts.ofBuf_main_call2_v10, Cert.ReferenceIdeal.Casts.toBuf_main_v65, Cert.ReferenceIdeal.Casts.ofBuf_main_v65])

end
-- ==== Proof.StageA.lean ====
/-
  The first part of the two lines, from contents that agree on the six arguments.

  Up to the edge weights the two programs are the same operations in the same order on buffers of the same names:
  the two rows of the edge list, each with the node numbers appended (the self loops), the degree of every node by a
  scatter-add of ones, its inverse square root where the degree is positive, and for every edge the product of the two
  end nodes' values. The kernel program then rounds the first product's two factors to a shorter float format, which
  over the extended reals leaves them as they are. Evaluated one operation at a time, each buffer that a later part
  reads holds the same term of the arguments on both sides.
-/
import proofs.«119963_j43791486550061_1_alg».proof.Proof.Cuts

noncomputable section

namespace Cert.KernelIdeal.StageA

open Cert.KernelIdeal Cert.KernelIdeal.Gen Cert.LibJoin Idealize.ShloMosaic Idealize.ShloMosaic.TcCoe Idealize.ShloMosaic.StableHlo

set_option maxRecDepth 16384 in
set_option maxHeartbeats 40000000 in
/-- The edge sources with the self loops appended are the same list on both sides. -/
theorem src (V : Valuation τ sig (Elt Ideal)) (V' : Valuation Cert.ReferenceIdeal.τ Cert.ReferenceIdeal.sig (Elt Ideal))
    (h1 : V (Proc.devRef .tc main_arg1) = V' (Proc.devRef .tc Cert.ReferenceIdeal.main_arg1)) :
    after Cuts.partA V (Proc.devRef .tc main_v3) = after Cert.ReferenceIdeal.Cuts.partA V' (Proc.devRef .tc Cert.ReferenceIdeal.main_v3) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h1] <;> rfl

set_option maxRecDepth 16384 in
set_option maxHeartbeats 40000000 in
/-- So are the edge targets. -/
theorem dst (V : Valuation τ sig (Elt Ideal)) (V' : Valuation Cert.ReferenceIdeal.τ Cert.ReferenceIdeal.sig (Elt Ideal))
    (h1 : V (Proc.devRef .tc main_arg1) = V' (Proc.devRef .tc Cert.ReferenceIdeal.main_arg1)) :
    after Cuts.partA V (Proc.devRef .tc main_v6) = after Cert.ReferenceIdeal.Cuts.partA V' (Proc.devRef .tc Cert.ReferenceIdeal.main_v6) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h1] <;> rfl

set_option maxRecDepth 16384 in
set_option maxHeartbeats 40000000 in
/-- The edge weights, the inverse square roots of the two end nodes' degrees multiplied, are the same array. -/
theorem weight (V : Valuation τ sig (Elt Ideal)) (V' : Valuation Cert.ReferenceIdeal.τ Cert.ReferenceIdeal.sig (Elt Ideal))
    (h1 : V (Proc.devRef .tc main_arg1) = V' (Proc.devRef .tc Cert.ReferenceIdeal.main_arg1)) :
    after Cuts.partA V (Proc.devRef .tc main_v29) = after Cert.ReferenceIdeal.Cuts.partA V' (Proc.devRef .tc Cert.ReferenceIdeal.main_v29) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h1] <;> rfl

set_option maxRecDepth 16384 in
set_option maxHeartbeats 40000000 in
/-- The first product's left factor, rounded to the shorter format, is the node features: a change of float format is the identity on extended reals. -/
theorem left (V : Valuation τ sig (Elt Ideal)) (V' : Valuation Cert.ReferenceIdeal.τ Cert.ReferenceIdeal.sig (Elt Ideal))
    (h0 : V (Proc.devRef .tc main_arg0) = V' (Proc.devRef .tc Cert.ReferenceIdeal.main_arg0)) :
    after Cuts.partA V (Proc.devRef .tc main_v30) = after Cert.ReferenceIdeal.Cuts.partA V' (Proc.devRef .tc Cert.ReferenceIdeal.main_arg0) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h0] <;> rfl

set_option maxRecDepth 16384 in
set_option maxHeartbeats 40000000 in
/-- Likewise its right factor is the first layer's weight matrix. -/
theorem right (V : Valuation τ sig (Elt Ideal)) (V' : Valuation Cert.ReferenceIdeal.τ Cert.ReferenceIdeal.sig (Elt Ideal))
    (h2 : V (Proc.devRef .tc main_arg2) = V' (Proc.devRef .tc Cert.ReferenceIdeal.main_arg2)) :
    after Cuts.partA V (Proc.devRef .tc main_v31) = after Cert.ReferenceIdeal.Cuts.partA V' (Proc.devRef .tc Cert.ReferenceIdeal.main_arg2) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h2] <;> rfl

set_option maxRecDepth 16384 in
set_option maxHeartbeats 40000000 in
/-- The first layer's bias is not written. -/
theorem bias1 (V : Valuation τ sig (Elt Ideal)) (V' : Valuation Cert.ReferenceIdeal.τ Cert.ReferenceIdeal.sig (Elt Ideal))
    (h3 : V (Proc.devRef .tc main_arg3) = V' (Proc.devRef .tc Cert.ReferenceIdeal.main_arg3)) :
    after Cuts.partA V (Proc.devRef .tc main_arg3) = after Cert.ReferenceIdeal.Cuts.partA V' (Proc.devRef .tc Cert.ReferenceIdeal.main_arg3) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h3] <;> rfl

set_option maxRecDepth 16384 in
set_option maxHeartbeats 40000000 in
/-- The second layer's weight matrix is not written. -/
theorem w2 (V : Valuation τ sig (Elt Ideal)) (V' : Valuation Cert.ReferenceIdeal.τ Cert.ReferenceIdeal.sig (Elt Ideal))
    (h4 : V (Proc.devRef .tc main_arg4) = V' (Proc.devRef .tc Cert.ReferenceIdeal.main_arg4)) :
    after Cuts.partA V (Proc.devRef .tc main_arg4) = after Cert.ReferenceIdeal.Cuts.partA V' (Proc.devRef .tc Cert.ReferenceIdeal.main_arg4) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h4] <;> rfl

set_option maxRecDepth 16384 in
set_option maxHeartbeats 40000000 in
/-- The second layer's bias is not written. -/
theorem bias2 (V : Valuation τ sig (Elt Ideal)) (V' : Valuation Cert.ReferenceIdeal.τ Cert.ReferenceIdeal.sig (Elt Ideal))
    (h5 : V (Proc.devRef .tc main_arg5) = V' (Proc.devRef .tc Cert.ReferenceIdeal.main_arg5)) :
    after Cuts.partA V (Proc.devRef .tc main_arg5) = after Cert.ReferenceIdeal.Cuts.partA V' (Proc.devRef .tc Cert.ReferenceIdeal.main_arg5) := by
  unfold Cert.KernelIdeal.Cuts.partA Cert.ReferenceIdeal.Cuts.partA
  simp only [hostOps0, hostOps0_1, hostOps0_2, Cert.ReferenceIdeal.RunP.ops, List.take_succ_cons, List.take_zero, List.drop_succ_cons, List.drop_zero, List.cons_append, List.nil_append]
  eval_line
  simp only [h5] <;> rfl

end Cert.KernelIdeal.StageA

end
-- ==== Proof.StageB.lean ====
/-
  The first layer of the two lines leaves alone what the second layer reads from before it: it writes none of the edge
  sources, the edge targets, the edge weights, the second layer's weight matrix and the second layer's bias.
-/
import proofs.«119963_j43791486550061_1_alg».proof.Proof.Cuts

noncomputable section

namespace Cert.KernelIdeal.StageB

open Cert.KernelIdeal Cert.KernelIdeal.Gen Cert.LibJoin Idealize.ShloMosaic Idealize.ShloMosaic.TcCoe Idealize.ShloMosaic.StableHlo

set_option maxRecDepth 16384 in
set_option maxHeartbeats 40000000 in
/-- The first layer does not write the edge sources. -/
theorem src (W : Valuation τ sig (Elt Ideal)) (W' : Valuation Cert.ReferenceIdeal.τ Cert.ReferenceIdeal.sig (Elt Ideal))
    (g3 : W (Proc.devRef .tc main_v3) = W' (Proc.devRef .tc Cert.ReferenceIdeal.main_v3)) :
    after Cuts.partB W (Proc.devRef .tc main_v3) = after Cert.ReferenceIdeal.Cuts.partB W' (Proc.devRef .tc Cert.ReferenceIdeal.main_v3) := by
  unfold Cert.KernelIdeal.Cuts.partB Cert.ReferenceIdeal.Cuts.partB
  simp only [Line.prod0, hostOps1, hostOps1_1, Cert.ReferenceIdeal.RunP.ops, List.take_succ_cons, List.take_zero, List.drop_succ_cons, List.drop_zero, List.cons_append, List.nil_append]
  eval_line
  simp only [g3] <;> rfl

set_option maxRecDepth 16384 in
set_option maxHeartbeats 40000000 in
/-- Nor the edge targets. -/
theorem dst (W : Valuation τ sig (Elt Ideal)) (W' : Valuation Cert.ReferenceIdeal.τ Cert.ReferenceIdeal.sig (Elt Ideal))
    (g6 : W (Proc.devRef .tc main_v6) = W' (Proc.devRef .tc Cert.ReferenceIdeal.main_v6)) :
    after Cuts.partB W (Proc.devRef .tc main_v6) = after Cert.ReferenceIdeal.Cuts.partB W' (Proc.devRef .tc Cert.ReferenceIdeal.main_v6) := by
  unfold Cert.KernelIdeal.Cuts.partB Cert.ReferenceIdeal.Cuts.partB
  simp only [Line.prod0, hostOps1, hostOps1_1, Cert.ReferenceIdeal.RunP.ops, List.take_succ_cons, List.take_zero, List.drop_succ_cons, List.drop_zero, List.cons_append, List.nil_append]
  eval_line
  simp only [g6] <;> rfl

set_option maxRecDepth 16384 in
set_option maxHeartbeats 40000000 in
/-- Nor the edge weights. -/
theorem weight (W : Valuation τ sig (Elt Ideal)) (W' : Valuation Cert.ReferenceIdeal.τ Cert.ReferenceIdeal.sig (Elt Ideal))
    (g29 : W (Proc.devRef .tc main_v29) = W' (Proc.devRef .tc Cert.ReferenceIdeal.main_v29)) :
    after Cuts.partB W (Proc.devRef .tc main_v29) = after Cert.ReferenceIdeal.Cuts.partB W' (Proc.devRef .tc Cert.ReferenceIdeal.main_v29) := by
  unfold Cert.KernelIdeal.Cuts.partB Cert.ReferenceIdeal.Cuts.partB
  simp only [Line.prod0, hostOps1, hostOps1_1, Cert.ReferenceIdeal.RunP.ops, List.take_succ_cons, List.take_zero, List.drop_succ_cons, List.drop_zero, List.cons_append, List.nil_append]
  eval_line
  simp only [g29] <;> rfl

set_option maxRecDepth 16384 in
set_option maxHeartbeats 40000000 in
/-- The second layer's weight matrix is not written. -/
theorem w2 (W : Valuation τ sig (Elt Ideal)) (W' : Valuation Cert.ReferenceIdeal.τ Cert.ReferenceIdeal.sig (Elt Ideal))
    (ga4 : W (Proc.devRef .tc main_arg4) = W' (Proc.devRef .tc Cert.ReferenceIdeal.main_arg4)) :
    after Cuts.partB W (Proc.devRef .tc main_arg4) = after Cert.ReferenceIdeal.Cuts.partB W' (Proc.devRef .tc Cert.ReferenceIdeal.main_arg4) := by
  unfold Cert.KernelIdeal.Cuts.partB Cert.ReferenceIdeal.Cuts.partB
  simp only [Line.prod0, hostOps1, hostOps1_1, Cert.ReferenceIdeal.RunP.ops, List.take_succ_cons, List.take_zero, List.drop_succ_cons, List.drop_zero, List.cons_append, List.nil_append]
  eval_line
  simp only [ga4] <;> rfl

set_option maxRecDepth 16384 in
set_option maxHeartbeats 40000000 in
/-- The second layer's bias is not written. -/
theorem bias2 (W : Valuation τ sig (Elt Ideal)) (W' : Valuation Cert.ReferenceIdeal.τ Cert.ReferenceIdeal.sig (Elt Ideal))
    (ga5 : W (Proc.devRef .tc main_arg5) = W' (Proc.devRef .tc Cert.ReferenceIdeal.main_arg5)) :
    after Cuts.partB W (Proc.devRef .tc main_arg5) = after Cert.ReferenceIdeal.Cuts.partB W' (Proc.devRef .tc Cert.ReferenceIdeal.main_arg5) := by
  unfold Cert.KernelIdeal.Cuts.partB Cert.ReferenceIdeal.Cuts.partB
  simp only [Line.prod0, hostOps1, hostOps1_1, Cert.ReferenceIdeal.RunP.ops, List.take_succ_cons, List.take_zero, List.drop_succ_cons, List.drop_zero, List.cons_append, List.nil_append]
  eval_line
  simp only [ga5] <;> rfl

end Cert.KernelIdeal.StageB

end
-- ==== Proof.StageBHidden.lean ====
/-
  The first layer of the two lines, from contents that agree on what the first part left.

  The kernel program's launch is written as its matrix product (module Line), on factors that are the reference's factors
  rounded to a shorter float format; over the extended reals the rounding is the identity, so the two products are one
  product. After it both sides gather the product's rows by edge source, scale each by the edge weight, scatter-add by
  edge target into zeros, add the bias and take the maximum with zero, the same operations in the same order.
-/
import proofs.«119963_j43791486550061_1_alg».proof.Proof.Cuts

noncomputable section

namespace Cert.KernelIdeal.StageB

open Cert.KernelIdeal Cert.KernelIdeal.Gen Cert.LibJoin Idealize.ShloMosaic Idealize.ShloMosaic.TcCoe Idealize.ShloMosaic.StableHlo

set_option maxRecDepth 16384 in
set_option maxHeartbeats 40000000 in
/-- The first layer's output after the maximum with zero is the reference's: the product of the same two factors, gathered by source, scaled by the edge weight, scatter-added by target, the bias added. -/
theorem hidden (W : Valuation τ sig (Elt Ideal)) (W' : Valuation Cert.ReferenceIdeal.τ Cert.ReferenceIdeal.sig (Elt Ideal))
    (g3 : W (Proc.devRef .tc main_v3) = W' (Proc.devRef .tc Cert.ReferenceIdeal.main_v3))
    (g6 : W (Proc.devRef .tc main_v6) = W' (Proc.devRef .tc Cert.ReferenceIdeal.main_v6))
    (g29 : W (Proc.devRef .tc main_v29) = W' (Proc.devRef .tc Cert.ReferenceIdeal.main_v29))
    (g30 : W (Proc.devRef .tc main_v30) = W' (Proc.devRef .tc Cert.ReferenceIdeal.main_arg0))
    (g31 : W (Proc.devRef .tc main_v31) = W' (Proc.devRef .tc Cert.ReferenceIdeal.main_arg2))
    (ga3 : W (Proc.devRef .tc main_arg3) = W' (Proc.devRef .tc Cert.ReferenceIdeal.main_arg3)) :
    after Cuts.partB W (Proc.devRef .tc main_v49) = after Cert.ReferenceIdeal.Cuts.partB W' (Proc.devRef .tc Cert.ReferenceIdeal.main_v47) := by
  unfold Cert.KernelIdeal.Cuts.partB Cert.ReferenceIdeal.Cuts.partB
  simp only [Line.prod0, hostOps1, hostOps1_1, Cert.ReferenceIdeal.RunP.ops, List.take_succ_cons, List.take_zero, List.drop_succ_cons, List.drop_zero, List.cons_append, List.nil_append]
  eval_line
  simp only [g3, g6, g29, g30, g31, ga3] <;> rfl

end Cert.KernelIdeal.StageB

end
-- ==== Proof.StageT.lean ====
/-
  Between the two layers the kernel program rounds the second product's two factors, the first layer's output and the
  second layer's weight matrix, to a shorter float format. The reference has no such operations. Over the extended reals a
  change of float format is the identity, so after the two roundings the kernel program's buffers still agree with the
  reference's, the rounded copies standing for the arrays they were rounded from.
-/
import proofs.«119963_j43791486550061_1_alg».proof.Proof.Cuts

noncomputable section

namespace Cert.KernelIdeal.StageT

open Cert.KernelIdeal Cert.KernelIdeal.Gen Cert.LibJoin Idealize.ShloMosaic Idealize.ShloMosaic.TcCoe Idealize.ShloMosaic.StableHlo

/-- The two roundings do not write the edge sources. -/
theorem src (Y : Valuation τ sig (Elt Ideal)) (Y' : Valuation Cert.ReferenceIdeal.τ Cert.ReferenceIdeal.sig (Elt Ideal))
    (y3 : Y (Proc.devRef .tc main_v3) = Y' (Proc.devRef .tc Cert.ReferenceIdeal.main_v3)) :
    after Cuts.partT Y (Proc.devRef .tc main_v3) = Y' (Proc.devRef .tc Cert.ReferenceIdeal.main_v3) := by
  unfold Cert.KernelIdeal.Cuts.partT
  simp only [hostOps1_2]
  eval_line
  simp only [y3] <;> rfl

/-- Nor the edge targets. -/
theorem dst (Y : Valuation τ sig (Elt Ideal)) (Y' : Valuation Cert.ReferenceIdeal.τ Cert.ReferenceIdeal.sig (Elt Ideal))
    (y6 : Y (Proc.devRef .tc main_v6) = Y' (Proc.devRef .tc Cert.ReferenceIdeal.main_v6)) :
    after Cuts.partT Y (Proc.devRef .tc main_v6) = Y' (Proc.devRef .tc Cert.ReferenceIdeal.main_v6) := by
  unfold Cert.KernelIdeal.Cuts.partT
  simp only [hostOps1_2]
  eval_line
  simp only [y6] <;> rfl

/-- Nor the edge weights. -/
theorem weight (Y : Valuation τ sig (Elt Ideal)) (Y' : Valuation Cert.ReferenceIdeal.τ Cert.ReferenceIdeal.sig (Elt Ideal))
    (y29 : Y (Proc.devRef .tc main_v29) = Y' (Proc.devRef .tc Cert.ReferenceIdeal.main_v29)) :
    after Cuts.partT Y (Proc.devRef .tc main_v29) = Y' (Proc.devRef .tc Cert.ReferenceIdeal.main_v29) := by
  unfold Cert.KernelIdeal.Cuts.partT
  simp only [hostOps1_2]
  eval_line
  simp only [y29] <;> rfl

/-- The first layer's output rounded to the shorter float format is the first layer's output: a change of float format is the identity on extended reals. -/
theorem hidden (Y : Valuation τ sig (Elt Ideal)) (Y' : Valuation Cert.ReferenceIdeal.τ Cert.ReferenceIdeal.sig (Elt Ideal))
    (y49 : Y (Proc.devRef .tc main_v49) = Y' (Proc.devRef .tc Cert.ReferenceIdeal.main_v47)) :
    after Cuts.partT Y (Proc.devRef .tc main_v50) = Y' (Proc.devRef .tc Cert.ReferenceIdeal.main_v47) := by
  unfold Cert.KernelIdeal.Cuts.partT
  simp only [hostOps1_2]
  eval_line
  simp only [y49] <;> rfl

/-- Likewise the second layer's weight matrix rounded is that matrix. -/
theorem right (Y : Valuation τ sig (Elt Ideal)) (Y' : Valuation Cert.ReferenceIdeal.τ Cert.ReferenceIdeal.sig (Elt Ideal))
    (ya4 : Y (Proc.devRef .tc main_arg4) = Y' (Proc.devRef .tc Cert.ReferenceIdeal.main_arg4)) :
    after Cuts.partT Y (Proc.devRef .tc main_v51) = Y' (Proc.devRef .tc Cert.ReferenceIdeal.main_arg4) := by
  unfold Cert.KernelIdeal.Cuts.partT
  simp only [hostOps1_2]
  eval_line
  simp only [ya4] <;> rfl

/-- The second layer's bias is not written. -/
theorem bias2 (Y : Valuation τ sig (Elt Ideal)) (Y' : Valuation Cert.ReferenceIdeal.τ Cert.ReferenceIdeal.sig (Elt Ideal))
    (ya5 : Y (Proc.devRef .tc main_arg5) = Y' (Proc.devRef .tc Cert.ReferenceIdeal.main_arg5)) :
    after Cuts.partT Y (Proc.devRef .tc main_arg5) = Y' (Proc.devRef .tc Cert.ReferenceIdeal.main_arg5) := by
  unfold Cert.KernelIdeal.Cuts.partT
  simp only [hostOps1_2]
  eval_line
  simp only [ya5] <;> rfl

end Cert.KernelIdeal.StageT

end
-- ==== Proof.StageC.lean ====
/-
  The second layer and the row-wise log-softmax of the two lines, from contents that agree on what the first layer left.

  Again the launch is its matrix product on the reference's two factors (the rounding is the identity over the extended
  reals); then the same gather by source, scaling by the edge weight, scatter-add by target and bias, and the same
  log-softmax: the row maximum, the shifted row, its exponentials summed, the logarithm, the difference.
-/
import proofs.«119963_j43791486550061_1_alg».proof.Proof.Cuts

noncomputable section

namespace Cert.KernelIdeal.StageC

open Cert.KernelIdeal Cert.KernelIdeal.Gen Cert.LibJoin Idealize.ShloMosaic Idealize.ShloMosaic.TcCoe Idealize.ShloMosaic.StableHlo

set_option maxRecDepth 16384 in
set_option maxHeartbeats 40000000 in
/-- The result buffer holds the same term on both sides. -/
theorem result (X : Valuation τ sig (Elt Ideal)) (X' : Valuation Cert.ReferenceIdeal.τ Cert.ReferenceIdeal.sig (Elt Ideal))
    (k3 : X (Proc.devRef .tc main_v3) = X' (Proc.devRef .tc Cert.ReferenceIdeal.main_v3))
    (k6 : X (Proc.devRef .tc main_v6) = X' (Proc.devRef .tc Cert.ReferenceIdeal.main_v6))
    (k29 : X (Proc.devRef .tc main_v29) = X' (Proc.devRef .tc Cert.ReferenceIdeal.main_v29))
    (k50 : X (Proc.devRef .tc main_v50) = X' (Proc.devRef .tc Cert.ReferenceIdeal.main_v47))
    (k51 : X (Proc.devRef .tc main_v51) = X' (Proc.devRef .tc Cert.ReferenceIdeal.main_arg4))
    (ka5 : X (Proc.devRef .tc main_arg5) = X' (Proc.devRef .tc Cert.ReferenceIdeal.main_arg5)) :
    after Cuts.partC X (Proc.devRef .tc main_v69) = after Cert.ReferenceIdeal.Cuts.partC X' (Proc.devRef .tc Cert.ReferenceIdeal.main_v65) := by
  unfold Cert.KernelIdeal.Cuts.partC Cert.ReferenceIdeal.Cuts.partC
  simp only [Line.prod1, hostOps2, hostOps2_1, Cert.ReferenceIdeal.RunP.ops, List.take_succ_cons, List.take_zero, List.drop_succ_cons, List.drop_zero, List.cons_append, List.nil_append]
  eval_line
  simp only [k3, k6, k29, k50, k51, ka5] <;> rfl

end Cert.KernelIdeal.StageC

end
-- ==== Proof.Bridge.lean ====
/-
  The program's line of host operations (module Line: every launch written as its matrix product) leaves in the result
  buffer the reference's composed term of the six arguments.

  Operation by operation the line is the same two-layer graph convolution as the reference: the edge lists with the self
  loops appended, the degree of every node and its inverse square root, the per-edge weights, then twice "product,
  gather by source, scale by the edge weight, scatter-add by target, add the bias", a maximum with zero in between and
  the row-wise log-softmax at the end. The two lines are compared in three parts (module Cuts). From contents that agree
  on the arguments, the first parts agree on the edge lists, the edge weights and the first product's factors (StageA);
  from that, the first layers agree on their output (StageB); the kernel program's two roundings between the layers change
  nothing (StageT); from that, the second layers and the log-softmax agree on the result (StageC). The only place where the two sides differ is that the kernel's side rounds the two factors of each
  product to a shorter float format first, which over the extended reals is the identity. The reference's line at its
  result buffer is its composed term (RefRun). No sum is reordered and nothing is cancelled: finiteness is not used.
-/
import proofs.«119963_j43791486550061_1_alg».proof.Proof.StageA
import proofs.«119963_j43791486550061_1_alg».proof.Proof.StageB
import proofs.«119963_j43791486550061_1_alg».proof.Proof.StageBHidden
import proofs.«119963_j43791486550061_1_alg».proof.Proof.StageT
import proofs.«119963_j43791486550061_1_alg».proof.Proof.StageC
import proofs.«119963_j43791486550061_1_alg».proof.Proof.RefRun

noncomputable section

namespace Cert.KernelIdeal.Bridge

open Cert.KernelIdeal Cert.KernelIdeal.Gen Idealize.ShloMosaic Idealize.ShloMosaic.TcCoe Idealize.ShloMosaic.StableHlo

/-- The reference's launch memory on device `c`, as buffer contents. -/
abbrev atLaunch (m' : (ℓ : Loc Cert.ReferenceIdeal.nD Cert.ReferenceIdeal.τ Cert.ReferenceIdeal.sig) → Buf (Elt Ideal) ℓ) (c : Dev nD) :
    Valuation Cert.ReferenceIdeal.τ Cert.ReferenceIdeal.sig (Elt Ideal) := fun b => m' (c, b)

/-- From contents `V` that hold the reference's arguments in the argument buffers, the line leaves the reference's
    composed term in the result buffer. -/
theorem line_value (V : Valuation τ sig (Elt Ideal)) (c : Dev nD)
    (m' : (ℓ : Loc Cert.ReferenceIdeal.nD Cert.ReferenceIdeal.τ Cert.ReferenceIdeal.sig) → Buf (Elt Ideal) ℓ)
    (h0 : V (Proc.devRef .tc main_arg0) = m' ((c.tc : Thread Cert.ReferenceIdeal.nD Cert.ReferenceIdeal.τ).loc Cert.ReferenceIdeal.main_arg0))
    (h1 : V (Proc.devRef .tc main_arg1) = m' ((c.tc : Thread Cert.ReferenceIdeal.nD Cert.ReferenceIdeal.τ).loc Cert.ReferenceIdeal.main_arg1))
    (h2 : V (Proc.devRef .tc main_arg2) = m' ((c.tc : Thread Cert.ReferenceIdeal.nD Cert.ReferenceIdeal.τ).loc Cert.ReferenceIdeal.main_arg2))
    (h3 : V (Proc.devRef .tc main_arg3) = m' ((c.tc : Thread Cert.ReferenceIdeal.nD Cert.ReferenceIdeal.τ).loc Cert.ReferenceIdeal.main_arg3))
    (h4 : V (Proc.devRef .tc main_arg4) = m' ((c.tc : Thread Cert.ReferenceIdeal.nD Cert.ReferenceIdeal.τ).loc Cert.ReferenceIdeal.main_arg4))
    (h5 : V (Proc.devRef .tc main_arg5) = m' ((c.tc : Thread Cert.ReferenceIdeal.nD Cert.ReferenceIdeal.τ).loc Cert.ReferenceIdeal.main_arg5)) :
    after Line.line V (Proc.devRef .tc main_v69) = Cert.ReferenceIdeal.RunP.res_main_v65 (F := Ideal) m' c := by
  refine Eq.trans ?_ (Cert.ReferenceIdeal.Hand.result_eq (F := Ideal) (atLaunch m' c) m' c (fun _ => rfl))
  rw [Cuts.line_split, Cert.ReferenceIdeal.Cuts.ops_split]
  simp only [Cuts.after_append']
  have a3 := StageA.src V (atLaunch m' c) h1
  have a6 := StageA.dst V (atLaunch m' c) h1
  have a29 := StageA.weight V (atLaunch m' c) h1
  have b3 := StageB.src _ _ a3
  have b6 := StageB.dst _ _ a6
  have b29 := StageB.weight _ _ a29
  have b49 := StageB.hidden _ _ a3 a6 a29 (StageA.left V (atLaunch m' c) h0) (StageA.right V (atLaunch m' c) h2) (StageA.bias1 V (atLaunch m' c) h3)
  have b4 := StageB.w2 _ _ (StageA.w2 V (atLaunch m' c) h4)
  have b5 := StageB.bias2 _ _ (StageA.bias2 V (atLaunch m' c) h5)
  exact StageC.result _ _ (StageT.src _ _ b3) (StageT.dst _ _ b6) (StageT.weight _ _ b29) (StageT.hidden _ _ b49)
    (StageT.right _ _ b4) (StageT.bias2 _ _ b5)

end Cert.KernelIdeal.Bridge

end
-- ==== Proof.lean ====
/-
  A two-layer graph convolution (self loops added, symmetric D^-1/2 A D^-1/2 weights, a maximum with zero between the
  layers, a row-wise log-softmax at the end) whose two dense products x · W1 and h · W2 run as row-tiled kernels,
  against the same network written with two `dot_general`s.

  Over the extended reals the two programs are the same function of the six arguments. Outside the two products they
  are the same host operations in the same order. Each kernel launch covers the 50000 rows in five blocks of 10000;
  a block of rows of a product is the product of that block of rows, so each launch leaves the whole product in its
  output array (module Rows), which is what one `dot_general` on the same buffers leaves (module Fold). The kernel's
  side rounds the factors to a shorter float format first, which is the identity on extended reals, so the composed
  terms coincide (module Bridge). No sum is reordered and no factor moved: the inputs' finiteness is never used.
  The pass that idealizes the kernel rewrote nothing, so that claim is empty; the three frames are the programs' runs
  with the values forgotten.
-/
import proofs.«119963_j43791486550061_1_alg».proof.Defs
import proofs.«119963_j43791486550061_1_alg».proof.Proof.Gen.Kernel
import proofs.«119963_j43791486550061_1_alg».proof.Proof.Gen.Kernel.Skeleton
import proofs.«119963_j43791486550061_1_alg».proof.Proof.Gen.Kernel.Launch
import proofs.«119963_j43791486550061_1_alg».proof.Proof.Gen.Kernel.Points
import proofs.«119963_j43791486550061_1_alg».proof.Proof.Gen.Kernel.Frame
import proofs.«119963_j43791486550061_1_alg».proof.Proof.Gen.KernelIdeal
import proofs.«119963_j43791486550061_1_alg».proof.Proof.Gen.KernelIdeal.Skeleton
import proofs.«119963_j43791486550061_1_alg».proof.Proof.Gen.KernelIdeal.Launch
import proofs.«119963_j43791486550061_1_alg».proof.Proof.Gen.KernelIdeal.Points
import proofs.«119963_j43791486550061_1_alg».proof.Proof.Gen.KernelIdeal.Frame
import proofs.«119963_j43791486550061_1_alg».proof.Proof.Gen.ReferenceIdeal
import proofs.«119963_j43791486550061_1_alg».proof.Proof.Gen.Pre_finite_inputs
import proofs.«119963_j43791486550061_1_alg».proof.Proof.RefOps
import proofs.«119963_j43791486550061_1_alg».proof.Proof.RefRun
import proofs.«119963_j43791486550061_1_alg».proof.Proof.KernelRun
import proofs.«119963_j43791486550061_1_alg».proof.Proof.Fold
import proofs.«119963_j43791486550061_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The idealizing pass rewrote no operation of the kernel: nothing to show. -/
theorem preserves : Cert.preserves_Kernel_KernelIdeal := trivial

/-- From memories that agree on the six arguments both programs run, the kernel's result array ending at the last
    boundary's contents, which are the line's (Fold); the line leaves the reference's composed term (Bridge). -/
theorem algebraic : Cert.algebraic_KernelIdeal_ReferenceIdeal := by
  intro m ρ m' ρ' _ hagree
  refine ⟨fun c => Cert.KernelIdeal.Gen.W10 m ρ c (Proc.devRef .tc Cert.KernelIdeal.main_v69), Cert.KernelIdeal.Named.run (F := Ideal) m ρ, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5⟩ := hagree c
  exact ((congrFun (Cert.KernelIdeal.Fold.last_eq_line m ρ c) _).trans
    (Cert.KernelIdeal.Bridge.line_value (Cert.KernelIdeal.Gen.W0 m ρ c) c m'
      a0.symm a1.symm a2.symm a3.symm a4.symm a5.symm)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
